-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x8 : Shape := ⟨2, ![4096, 8]⟩
abbrev S5632x256 : Shape := ⟨2, ![5632, 256]⟩
abbrev S5632 : Shape := ⟨1, ![5632]⟩
abbrev S2048x704 : Shape := ⟨2, ![2048, 704]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S5632 : S_.BroadcastsInDim S5632 (![] : Fin 0 → Fin S5632.rank)
  reducesTo_S5632_S_d0 : S5632.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg6 : FVec F S5632 .f32) (main_arg7 : FVec F S4096x8 .f32) (main_arg9 : FVec F S2048 .f32) (main_v13 : IVec S_ 1) (main_v16 : IVec S4096x8 1) : IVec S_ 1 :=
  let main_c_5 : IVec S_ 1 := constantI S_ 1 1#1
  let main_v17 : IVec S_ 1 := (fun x v => Host.reduce IntOp.andi x v reducesTo_S4096x8_S_d0_1 h_S_) main_v16 main_c_5
  let main_v18 : IVec S_ 1 := andi main_v13 main_v17
  let main_v19 : FVec F S5632 .f32 := Host.absf main_arg6
  let main_cst_6 : FVec F S_ .f32 := constant S_ .f32 0x7F800000#32
  let main_v20 : FVec F S5632 .f32 := broadcastInDim S5632 ![] bcast_S_S5632 main_cst_6
  let main_v21 : IVec S5632 1 := cmpf .olt main_v19 main_v20
  let main_c_7 : IVec S_ 1 := constantI S_ 1 1#1
  let main_v22 : IVec S_ 1 := (fun x v => Host.reduce IntOp.andi x v reducesTo_S5632_S_d0 h_S_) main_v21 main_c_7
  let main_v23 : IVec S_ 1 := andi main_v18 main_v22
  let main_v24 : FVec F S4096x8 .f32 := Host.absf main_arg7
  let main_cst_8 : FVec F S_ .f32 := constant S_ .f32 0x7F800000#32
  let main_v25 : FVec F S4096x8 .f32 := broadcastInDim S4096x8 ![] bcast_S_S4096x8 main_cst_8
  let main_v26 : IVec S4096x8 1 := cmpf .olt main_v24 main_v25
  let main_c_9 : IVec S_ 1 := constantI S_ 1 1#1
  let main_v27 : IVec S_ 1 := (fun x v => Host.reduce IntOp.andi x v reducesTo_S4096x8_S_d0_1 h_S_) main_v26 main_c_9
  let main_v28 : IVec S_ 1 := andi main_v23 main_v27
  let main_v29 : FVec F S2048 .f32 := Host.absf main_arg9
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S4096x8 .f32) (main_arg2 : IVec S5632x256 32) (main_arg3 : FVec F S5632 .f32) (main_arg4 : FVec F S4096x8 .f32) (main_arg5 : IVec S5632x256 32) (main_arg6 : FVec F S5632 .f32) (main_arg7 : FVec F S4096x8 .f32) (main_arg8 : IVec S2048x704 32) (main_arg9 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S5632 .f32 := Host.absf main_arg3
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_c_3 : IVec S_ 1 := constantI S_ 1 1#1
  let main_v12 : IVec S_ 1 := (fun x v => Host.reduce IntOp.andi x v reducesTo_S5632_S_d0 h_S_) main_v11 main_c_3
  let main_v13 : IVec S_ 1 := andi main_v8 main_v12
  let main_v14 : FVec F S4096x8 .f32 := Host.absf main_arg4
  let main_cst_4 : FVec F S_ .f32 := constant S_ .f32 0x7F800000#32
  let main_v15 : FVec F S4096x8 .f32 := broadcastInDim S4096x8 ![] bcast_S_S4096x8 main_cst_4
  let main_v16 : IVec S4096x8 1 := cmpf .olt main_v14 main_v15
  fn_part1 (F := F) main_arg6 main_arg7 main_arg9 main_v13 main_v16
-- ==== Kernel.lean ====
abbrev S4096x2048 : Shape := ⟨2, ![4096, 2048]⟩
abbrev S4096x8 : Shape := ⟨2, ![4096, 8]⟩
abbrev S5632x256 : Shape := ⟨2, ![5632, 256]⟩
abbrev S5632 : Shape := ⟨1, ![5632]⟩
abbrev S2048x704 : Shape := ⟨2, ![2048, 704]⟩
abbrev S2048 : Shape := ⟨1, ![2048]⟩
abbrev S_ : Shape := ⟨0, ![]⟩
abbrev S5632x256x1 : Shape := ⟨3, ![5632, 256, 1]⟩
abbrev S5632x256x8 : Shape := ⟨3, ![5632, 256, 8]⟩
abbrev S5632x2048 : Shape := ⟨2, ![5632, 2048]⟩
abbrev S5632x1 : Shape := ⟨2, ![5632, 1]⟩
abbrev S2048x704x1 : Shape := ⟨3, ![2048, 704, 1]⟩
abbrev S2048x704x8 : Shape := ⟨3, ![2048, 704, 8]⟩
abbrev S2048x5632 : Shape := ⟨2, ![2048, 5632]⟩
abbrev S2048x1 : Shape := ⟨2, ![2048, 1]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩
abbrev S2048x512 : Shape := ⟨2, ![2048, 512]⟩

abbrev nBuf : Space → Nat
  | .hbm => 55
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x8, .f32⟩
  | .hbm, ⟨2, _⟩ => ⟨S5632x256, .i32⟩
  | .hbm, ⟨3, _⟩ => ⟨S5632, .f32⟩
  | .hbm, ⟨4, _⟩ => ⟨S4096x8, .f32⟩
  | .hbm, ⟨5, _⟩ => ⟨S5632x256, .i32⟩
  | .hbm, ⟨6, _⟩ => ⟨S5632, .f32⟩
  | .hbm, ⟨7, _⟩ => ⟨S4096x8, .f32⟩
  | .hbm, ⟨8, _⟩ => ⟨S2048x704, .i32⟩
  | .hbm, ⟨9, _⟩ => ⟨S2048, .f32⟩
  | .hbm, ⟨10, _⟩ => ⟨S_, .i32⟩
  | .hbm, ⟨11, _⟩ => ⟨S5632x256, .i32⟩
  | .hbm, ⟨12, _⟩ => ⟨S5632x256, .i1⟩
  | .hbm, ⟨13, _⟩ => ⟨S_, .i32⟩
  | .hbm, ⟨14, _⟩ => ⟨S5632x256, .i32⟩
  | .hbm, ⟨15, _⟩ => ⟨S5632x256, .i32⟩
  | .hbm, ⟨16, _⟩ => ⟨S5632x256, .i32⟩
  | .hbm, ⟨17, _⟩ => ⟨S5632x256x1, .i32⟩
  | .hbm, ⟨18, _⟩ => ⟨S5632x256x8, .f32⟩
  | .hbm, ⟨19, _⟩ => ⟨S5632x2048, .f32⟩
  | .hbm, ⟨20, _⟩ => ⟨S5632x1, .f32⟩
  | .hbm, ⟨21, _⟩ => ⟨S5632x2048, .f32⟩
  | .hbm, ⟨22, _⟩ => ⟨S5632x2048, .f32⟩
  | .hbm, ⟨23, _⟩ => ⟨S5632x2048, .bf16⟩
  | .hbm, ⟨24, _⟩ => ⟨S_, .i32⟩
  | .hbm, ⟨25, _⟩ => ⟨S5632x256, .i32⟩
  | .hbm, ⟨26, _⟩ => ⟨S5632x256, .i1⟩
  | .hbm, ⟨27, _⟩ => ⟨S_, .i32⟩
  | .hbm, ⟨28, _⟩ => ⟨S5632x256, .i32⟩
  | .hbm, ⟨29, _⟩ => ⟨S5632x256, .i32⟩
  | .hbm, ⟨30, _⟩ => ⟨S5632x256, .i32⟩
  | .hbm, ⟨31, _⟩ => ⟨S5632x256x1, .i32⟩
  | .hbm, ⟨32, _⟩ => ⟨S5632x256x8, .f32⟩
  | .hbm, ⟨33, _⟩ => ⟨S5632x2048, .f32⟩
  | .hbm, ⟨34, _⟩ => ⟨S5632x1, .f32⟩
  | .hbm, ⟨35, _⟩ => ⟨S5632x2048, .f32⟩
  | .hbm, ⟨36, _⟩ => ⟨S5632x2048, .f32⟩
  | .hbm, ⟨37, _⟩ => ⟨S5632x2048, .bf16⟩
  | .hbm, ⟨38, _⟩ => ⟨S_, .i32⟩
  | .hbm, ⟨39, _⟩ => ⟨S2048x704, .i32⟩
  | .hbm, ⟨40, _⟩ => ⟨S2048x704, .i1⟩
  | .hbm, ⟨41, _⟩ => ⟨S_, .i32⟩
  | .hbm, ⟨42, _⟩ => ⟨S2048x704, .i32⟩
  | .hbm, ⟨43, _⟩ => ⟨S2048x704, .i32⟩
  | .hbm, ⟨44, _⟩ => ⟨S2048x704, .i32⟩
  | .hbm, ⟨45, _⟩ => ⟨S2048x704x1, .i32⟩
  | .hbm, ⟨46, _⟩ => ⟨S2048x704x8, .f32⟩
  | .hbm, ⟨47, _⟩ => ⟨S2048x5632, .f32⟩
  | .hbm, ⟨48, _⟩ => ⟨S2048x1, .f32⟩
  | .hbm, ⟨49, _⟩ => ⟨S2048x5632, .f32⟩
  | .hbm, ⟨50, _⟩ => ⟨S2048x5632, .f32⟩
  | .hbm, ⟨51, _⟩ => ⟨S2048x5632, .bf16⟩
  | .hbm, ⟨52, _⟩ => ⟨S4096x2048, .bf16⟩
  | .hbm, ⟨53, _⟩ => ⟨S4096x5632, .bf16⟩
  | .hbm, ⟨54, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 11], ![false, false]⟩

def k1_cond2 (i : grid1.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S5632x256 : S_.BroadcastsInDim S5632x256 (![] : Fin 0 → Fin S5632x256.rank)
  bcast_S5632x256_S5632x256x1_0_1 : S5632x256.BroadcastsInDim S5632x256x1 (![0, 1] : Fin 2 → Fin S5632x256x1.rank)
  shapeCasts_S5632x256x8_S5632x2048 : S5632x256x8.ShapeCasts S5632x2048
  bcast_S5632_S5632x1_0 : S5632.BroadcastsInDim S5632x1 (![0] : Fin 1 → Fin S5632x1.rank)
  bcast_S5632x1_S5632x2048_0_1 : S5632x1.BroadcastsInDim S5632x2048 (![0, 1] : Fin 2 → Fin S5632x2048.rank)
  bitsLt_bf16_f32 : FTy.bits .bf16 < FTy.bits .f32
  bcast_S_S2048x704 : S_.BroadcastsInDim S2048x704 (![] : Fin 0 → Fin S2048x704.rank)
  bcast_S2048x704_S2048x704x1_0_1 : S2048x704.BroadcastsInDim S2048x704x1 (![0, 1] : Fin 2 → Fin S2048x704x1.rank)
  shapeCasts_S2048x704x8_S2048x5632 : S2048x704x8.ShapeCasts S2048x5632
  bcast_S2048_S2048x1_0 : S2048.BroadcastsInDim S2048x1 (![0] : Fin 1 → Fin S2048x1.rank)
  bcast_S2048x1_S2048x5632_0_1 : S2048x1.BroadcastsInDim S2048x5632 (![0, 1] : Fin 2 → Fin S2048x5632.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  gather_S4096x8_S5632x256x1_S5632x256x8_2_0_n_n_0_2_18_wf : GatherDims.WF S4096x8 S5632x256x1 S5632x256x8 [2] [0] [] [0] [] 2 ![1, 8]
  gather_S4096x8_S2048x704x1_S2048x704x8_2_0_n_n_0_2_18_wf : GatherDims.WF S4096x8 S2048x704x1 S2048x704x8 [2] [0] [] [0] [] 2 ![1, 8]
  dot_S1024x2048_S512x2048_S1024x512_1_1_0_0_n_n_wf : DotDims.WF S1024x2048 S512x2048 S1024x512 [1] [1] [0] [0] [] []
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .bf16 = 32 ∨ (Rect.block (s := S4096x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S5632x2048.size a
  hwx0_1 : ∀ i : grid0.Coords, EltTy.bits .bf16 = 32 ∨ (Rect.block (s := S5632x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S5632x2048.size a
  hwx0_2 : ∀ i : grid0.Coords, EltTy.bits .bf16 = 32 ∨ (Rect.block (s := S5632x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x5632.size a
  hwx0_3 : ∀ i : grid0.Coords, EltTy.bits .bf16 = 32 ∨ (Rect.block (s := S4096x5632) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x5632.size a
  hwx1_0 : ∀ i : grid1.Coords, EltTy.bits .bf16 = 32 ∨ (Rect.block (s := S4096x5632) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x5632.size a
  hwx1_1 : ∀ i : grid1.Coords, EltTy.bits .bf16 = 32 ∨ (Rect.block (s := S2048x5632) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S4096x2048.size a
  hwx1_2 : ∀ i : grid1.Coords, EltTy.bits .f32 = 32 ∨ (Rect.block (s := S4096x2048) S1024x2048.size (cc1_transform_2 i) (hinb1_2 i)).WholeWords (EltTy.packing .f32)

variable [Facts₀]

def gather_S4096x8_S5632x256x1_S5632x256x8_2_0_n_n_0_2_18 : GatherDims S4096x8 S5632x256x1 S5632x256x8 where
  offsetDims := [2]
  collapsedSliceDims := [0]
  operandBatchingDims := []
  startIndicesBatchingDims := []
  startIndexMap := [0]
  indexVectorDim := 2
  sliceSizes := ![1, 8]
  wf := gather_S4096x8_S5632x256x1_S5632x256x8_2_0_n_n_0_2_18_wf
def gather_S4096x8_S2048x704x1_S2048x704x8_2_0_n_n_0_2_18 : GatherDims S4096x8 S2048x704x1 S2048x704x8 where
  offsetDims := [2]
  collapsedSliceDims := [0]
  operandBatchingDims := []
  startIndicesBatchingDims := []
  startIndexMap := [0]
  indexVectorDim := 2
  sliceSizes := ![1, 8]
  wf := gather_S4096x8_S2048x704x1_S2048x704x8_2_0_n_n_0_2_18_wf
def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf
def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v36) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v37) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4096x2048 : Shape := ⟨2, ![4096, 2048]⟩
abbrev S4096x8 : Shape := ⟨2, ![4096, 8]⟩
abbrev S5632x256 : Shape := ⟨2, ![5632, 256]⟩
abbrev S5632 : Shape := ⟨1, ![5632]⟩
abbrev S2048x704 : Shape := ⟨2, ![2048, 704]⟩
abbrev S2048 : Shape := ⟨1, ![2048]⟩
abbrev S_ : Shape := ⟨0, ![]⟩
abbrev S5632x256x1 : Shape := ⟨3, ![5632, 256, 1]⟩
abbrev S5632x256x8 : Shape := ⟨3, ![5632, 256, 8]⟩
abbrev S5632x2048 : Shape := ⟨2, ![5632, 2048]⟩
abbrev S5632x1 : Shape := ⟨2, ![5632, 1]⟩
abbrev S2048x704x1 : Shape := ⟨3, ![2048, 704, 1]⟩
abbrev S2048x704x8 : Shape := ⟨3, ![2048, 704, 8]⟩
abbrev S2048x5632 : Shape := ⟨2, ![2048, 5632]⟩
abbrev S2048x1 : Shape := ⟨2, ![2048, 1]⟩
abbrev S4096x5632 : Shape := ⟨2, ![4096, 5632]⟩

abbrev nBuf : Space → Nat
  | .hbm => 65
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8, .f32⟩
  | .hbm, ⟨2, _⟩ => ⟨S5632x256, .i32⟩
  | .hbm, ⟨3, _⟩ => ⟨S5632, .f32⟩
  | .hbm, ⟨4, _⟩ => ⟨S4096x8, .f32⟩
  | .hbm, ⟨5, _⟩ => ⟨S5632x256, .i32⟩
  | .hbm, ⟨6, _⟩ => ⟨S5632, .f32⟩
  | .hbm, ⟨7, _⟩ => ⟨S4096x8, .f32⟩
  | .hbm, ⟨8, _⟩ => ⟨S2048x704, .i32⟩
  | .hbm, ⟨9, _⟩ => ⟨S2048, .f32⟩
  | .hbm, ⟨10, _⟩ => ⟨S_, .i32⟩
  | .hbm, ⟨11, _⟩ => ⟨S5632x256, .i32⟩
  | .hbm, ⟨12, _⟩ => ⟨S5632x256, .i1⟩
  | .hbm, ⟨13, _⟩ => ⟨S_, .i32⟩
  | .hbm, ⟨14, _⟩ => ⟨S5632x256, .i32⟩
  | .hbm, ⟨15, _⟩ => ⟨S5632x256, .i32⟩
  | .hbm, ⟨16, _⟩ => ⟨S5632x256, .i32⟩
  | .hbm, ⟨17, _⟩ => ⟨S5632x256x1, .i32⟩
  | .hbm, ⟨18, _⟩ => ⟨S5632x256x8, .f32⟩
  | .hbm, ⟨19, _⟩ => ⟨S5632x2048, .f32⟩
  | .hbm, ⟨20, _⟩ => ⟨S5632x1, .f32⟩
  | .hbm, ⟨21, _⟩ => ⟨S5632x2048, .f32⟩
  | .hbm, ⟨22, _⟩ => ⟨S5632x2048, .f32⟩
  | .hbm, ⟨23, _⟩ => ⟨S_, .i32⟩
  | .hbm, ⟨24, _⟩ => ⟨S5632x256, .i32⟩
  | .hbm, ⟨25, _⟩ => ⟨S5632x256, .i1⟩
  | .hbm, ⟨26, _⟩ => ⟨S_, .i32⟩
  | .hbm, ⟨27, _⟩ => ⟨S5632x256, .i32⟩
  | .hbm, ⟨28, _⟩ => ⟨S5632x256, .i32⟩
  | .hbm, ⟨29, _⟩ => ⟨S5632x256, .i32⟩
  | .hbm, ⟨30, _⟩ => ⟨S5632x256x1, .i32⟩
  | .hbm, ⟨31, _⟩ => ⟨S5632x256x8, .f32⟩
  | .hbm, ⟨32, _⟩ => ⟨S5632x2048, .f32⟩
  | .hbm, ⟨33, _⟩ => ⟨S5632x1, .f32⟩
  | .hbm, ⟨34, _⟩ => ⟨S5632x2048, .f32⟩
  | .hbm, ⟨35, _⟩ => ⟨S5632x2048, .f32⟩
  | .hbm, ⟨36, _⟩ => ⟨S_, .i32⟩
  | .hbm, ⟨37, _⟩ => ⟨S2048x704, .i32⟩
  | .hbm, ⟨38, _⟩ => ⟨S2048x704, .i1⟩
  | .hbm, ⟨39, _⟩ => ⟨S_, .i32⟩
  | .hbm, ⟨40, _⟩ => ⟨S2048x704, .i32⟩
  | .hbm, ⟨41, _⟩ => ⟨S2048x704, .i32⟩
  | .hbm, ⟨42, _⟩ => ⟨S2048x704, .i32⟩
  | .hbm, ⟨43, _⟩ => ⟨S2048x704x1, .i32⟩
  | .hbm, ⟨44, _⟩ => ⟨S2048x704x8, .f32⟩
  | .hbm, ⟨45, _⟩ => ⟨S2048x5632, .f32⟩
  | .hbm, ⟨46, _⟩ => ⟨S2048x1, .f32⟩
  | .hbm, ⟨47, _⟩ => ⟨S2048x5632, .f32⟩
  | .hbm, ⟨48, _⟩ => ⟨S2048x5632, .f32⟩
  | .hbm, ⟨49, _⟩ => ⟨S2048x5632, .f32⟩
  | .hbm, ⟨50, _⟩ => ⟨S4096x5632, .f32⟩
  | .hbm, ⟨51, _⟩ => ⟨S4096x5632, .f32⟩
  | .hbm, ⟨52, _⟩ => ⟨S4096x5632, .f32⟩
  | .hbm, ⟨53, _⟩ => ⟨S_, .f32⟩
  | .hbm, ⟨54, _⟩ => ⟨S4096x5632, .f32⟩
  | .hbm, ⟨55, _⟩ => ⟨S4096x5632, .f32⟩
  | .hbm, ⟨56, _⟩ => ⟨S_, .f32⟩
  | .hbm, ⟨57, _⟩ => ⟨S4096x5632, .f32⟩
  | .hbm, ⟨58, _⟩ => ⟨S4096x5632, .f32⟩
  | .hbm, ⟨59, _⟩ => ⟨S4096x5632, .f32⟩
  | .hbm, ⟨60, _⟩ => ⟨S2048x5632, .f32⟩
  | .hbm, ⟨61, _⟩ => ⟨S4096x5632, .f32⟩
  | .hbm, ⟨62, _⟩ => ⟨S4096x5632, .f32⟩
  | .hbm, ⟨63, _⟩ => ⟨S5632x2048, .f32⟩
  | .hbm, ⟨64, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  bcast_S_S5632x256 : S_.BroadcastsInDim S5632x256 (![] : Fin 0 → Fin S5632x256.rank)
  bcast_S5632x256_S5632x256x1_0_1 : S5632x256.BroadcastsInDim S5632x256x1 (![0, 1] : Fin 2 → Fin S5632x256x1.rank)
  shapeCasts_S5632x256x8_S5632x2048 : S5632x256x8.ShapeCasts S5632x2048
  bcast_S5632_S5632x1_0 : S5632.BroadcastsInDim S5632x1 (![0] : Fin 1 → Fin S5632x1.rank)
  bcast_S5632x1_S5632x2048_0_1 : S5632x1.BroadcastsInDim S5632x2048 (![0, 1] : Fin 2 → Fin S5632x2048.rank)
  bcast_S_S2048x704 : S_.BroadcastsInDim S2048x704 (![] : Fin 0 → Fin S2048x704.rank)
  bcast_S2048x704_S2048x704x1_0_1 : S2048x704.BroadcastsInDim S2048x704x1 (![0, 1] : Fin 2 → Fin S2048x704x1.rank)
  shapeCasts_S2048x704x8_S2048x5632 : S2048x704x8.ShapeCasts S2048x5632
  bcast_S2048_S2048x1_0 : S2048.BroadcastsInDim S2048x1 (![0] : Fin 1 → Fin S2048x1.rank)
  bcast_S2048x1_S2048x5632_0_1 : S2048x1.BroadcastsInDim S2048x5632 (![0, 1] : Fin 2 → Fin S2048x5632.rank)
  transposes_S5632x2048_S2048x5632_1_0 : S5632x2048.Transposes [1, 0] S2048x5632
  bcast_S_S4096x5632 : S_.BroadcastsInDim S4096x5632 (![] : Fin 0 → Fin S4096x5632.rank)
  transposes_S2048x5632_S5632x2048_1_0 : S2048x5632.Transposes [1, 0] S5632x2048
  gather_S4096x8_S5632x256x1_S5632x256x8_2_0_n_n_0_2_18_wf : GatherDims.WF S4096x8 S5632x256x1 S5632x256x8 [2] [0] [] [0] [] 2 ![1, 8]
  gather_S4096x8_S2048x704x1_S2048x704x8_2_0_n_n_0_2_18_wf : GatherDims.WF S4096x8 S2048x704x1 S2048x704x8 [2] [0] [] [0] [] 2 ![1, 8]
  dot_S4096x2048_S2048x5632_S4096x5632_1_0_0_1_n_n_wf : DotDims.WF S4096x2048 S2048x5632 S4096x5632 [1] [0] [0] [1] [] []
  dot_S4096x5632_S5632x2048_S4096x2048_1_0_0_1_n_n_wf : DotDims.WF S4096x5632 S5632x2048 S4096x2048 [1] [0] [0] [1] [] []

variable [Facts₀]

def gather_S4096x8_S5632x256x1_S5632x256x8_2_0_n_n_0_2_18 : GatherDims S4096x8 S5632x256x1 S5632x256x8 where
  offsetDims := [2]
  collapsedSliceDims := [0]
  operandBatchingDims := []
  startIndicesBatchingDims := []
  startIndexMap := [0]
  indexVectorDim := 2
  sliceSizes := ![1, 8]
  wf := gather_S4096x8_S5632x256x1_S5632x256x8_2_0_n_n_0_2_18_wf
def gather_S4096x8_S2048x704x1_S2048x704x8_2_0_n_n_0_2_18 : GatherDims S4096x8 S2048x704x1 S2048x704x8 where
  offsetDims := [2]
  collapsedSliceDims := [0]
  operandBatchingDims := []
  startIndicesBatchingDims := []
  startIndexMap := [0]
  indexVectorDim := 2
  sliceSizes := ![1, 8]
  wf := gather_S4096x8_S2048x704x1_S2048x704x8_2_0_n_n_0_2_18_wf
def dot_S4096x2048_S2048x5632_S4096x5632_1_0_0_1_n_n : DotDims S4096x2048 S2048x5632 S4096x5632 where
  lhsContracting := [1]
  rhsContracting := [0]
  lhsNonContracting := [0]
  rhsNonContracting := [1]
  lhsBatch := []
  rhsBatch := []
  wf := dot_S4096x2048_S2048x5632_S4096x5632_1_0_0_1_n_n_wf
def dot_S4096x5632_S5632x2048_S4096x2048_1_0_0_1_n_n : DotDims S4096x5632 S5632x2048 S4096x2048 where
  lhsContracting := [1]
  rhsContracting := [0]
  lhsNonContracting := [0]
  rhsNonContracting := [1]
  lhsBatch := []
  rhsBatch := []
  wf := dot_S4096x5632_S5632x2048_S4096x2048_1_0_0_1_n_n_wf

class Facts : Prop extends Facts₀ where

variable [Facts]
-- ==== Proof.GateUp.lean ====
/-
  The gate/up projection's pallas_call (the first of the two), on its grid of 4 token tiles by 11 column tiles.
  At a grid point the body reads three staged blocks — 1024 rows of the activations, 512 rows of the gate weights,
  512 rows of the up weights — and overwrites the staged output block [1024, 512] with ONE store of
  silu(x·Wgᵀ) ⊙ (x·Wuᵀ) of those blocks. Nothing is carried from point to point, every window's blocks tile its
  array, and the output block is written back at every point. This module states what the body leaves in the output's
  staging buffer as a function of the three input blocks, proves the body's triple by symbolic execution of the
  printed function, and packages both as the pipeline library's proof data and body obligation, for any float
  instance and any contents `V` of the unscoped buffers at the region's entry.
-/
import proofs.«175893_j678604833231_2_alg».proof.Proof.Gen.KernelIdeal.Launch
import proofs.«175893_j678604833231_2_alg».proof.Proof.Gen.KernelIdeal.Skeleton
import proofs.«175893_j678604833231_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX : Rect S1024x2048 := Rect.unit (s := S1024x2048) ![0, 0] S1024x2048.size inb_S1024x2048_S1024x2048_0_0
abbrev rW : Rect S512x2048 := Rect.unit (s := S512x2048) ![0, 0] S512x2048.size inb_S512x2048_S512x2048_0_0
abbrev rH : Rect S1024x512 := Rect.unit (s := S1024x512) ![0, 0] S1024x512.size inb_S1024x512_S1024x512_0_0

/-- What the body leaves in the output's staging buffer, from the three input blocks: its one store, the block whole. -/
def hidden (x : Vec F S1024x2048 .bf16) (wg wu : Vec F S512x2048 .bf16) : Vec F S1024x512 .bf16 :=
  View.canon [⟨rH, k0_pay1 (View.ld x rX) (View.ld wg rW) (View.ld wu rW)⟩]

/-- The one store covers the output block. -/
theorem hidden_cover (p : Vec F S1024x512 .bf16) (y : S1024x512.Idx) :
    ∃ pc ∈ ([⟨rH, p⟩] : List (View.Piece (Elt F) S1024x512 .bf16)), y ∈ pc.1.set :=
  View.cover_of_tiled [⟨rH, p⟩] S1024x512.size (by rfl) y

set_option maxHeartbeats 1000000 in
/-- The body on whole staging memrefs: the inputs' at read contents, the output's at anything, runs to the
    continuation holding the inputs' as they were and the output's at `hidden` of them. -/
theorem body_run (c : Dev nD) (E : Set ℕ) (i : grid0.Coords)
    (a2 : Memref sig .tc .vmem S1024x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S1024x512 .bf16) (h5 : a5.IsWhole)
    (x : Vec F S1024x2048 .bf16) (wg wu : Vec F S512x2048 .bf16) (K : PUnit → sProp 𝕄) :
    iprop(owns (c : Thread nD τ) a2 fullShare x ∗ owns (c : Thread nD τ) a3 fullShare wg ∗ owns (c : Thread nD τ) a4 fullShare wu
        ∗ (∃ d, owns (c : Thread nD τ) a5 fullShare d)
        ∗ (iprop(owns (c : Thread nD τ) a2 fullShare x ∗ owns (c : Thread nD τ) a3 fullShare wg ∗ owns (c : Thread nD τ) a4 fullShare wu
            ∗ owns (c : Thread nD τ) a5 fullShare (hidden x wg wu)) -∗ K ⟨⟩))
      ⊢ wp frame (wpE (defs₀ (F := F)) Variants.none c none) E (cc0__gateup_kernel i a2 h2 a3 h3 a4 h4 a5 h5) K := by
  simp only [cc0__gateup_kernel_eq_skeleton]; unfold cc0__gateup_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (hidden_cover _)

/-- The proof data on core `c`: the arrays as the region finds them; after the body each input's buffer at its block
    and the output's at `hidden` of the three blocks; the invariant the scoped rest and the generator register,
    untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => hidden (blockAt V c 0 t) (blockAt V c 1 t) (blockAt V c 2 t)
  Φ _ := Pipeline.ΦA spec0 c
  q _ := fullShare
  owed _ := 0

theorem dat_A (c : Dev nD) (w : Fin cfg0.W) : (dat V c).A w = V c (Pipeline.arrRef spec0 w) := by
  dsimp only [dat]
theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) :
    (dat V c).after 3 t = hidden (blockAt V c 0 t) (blockAt V c 1 t) (blockAt V c 2 t) := by dsimp only [dat]

/-- Each input's current staging buffer holds its block at every point, fetched there or not (an unfetched
    window's block index has not moved since the point that fetched it). -/
theorem before_0 (c : Dev nD) (t : Fin cfg0.N) (d) : (dat V c).before 0 t d = blockAt V c 0 t :=
  ((dat V c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg0.N) (d) : (dat V c).before 1 t d = blockAt V c 1 t :=
  ((dat V c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)
theorem before_2 (c : Dev nD) (t : Fin cfg0.N) (d) : (dat V c).before 2 t d = blockAt V c 2 t :=
  ((dat V c).before_in_eq_fetched 2 rfl (fun _ => rfl) (fun _ _ _ => rfl)
    (fun t => by rw [after_2]; unfold Dat.blockOf blockAt; rw [dat_A]; try rfl) t d).trans
    (by unfold Dat.fetched Dat.blockOf blockAt; rw [dat_A]; try rfl)

/-- The library's body obligation, at every point: the inputs' memrefs hold their blocks, so `body_run` applies; the
    invariant and the core's dues pass through unread. -/
theorem body_obligation (c : Dev nD) : BodyObligation (dat (F := F) V c) (defs₀ (F := F)) Variants.none () Set.univ := fun t => by
  rw [bigSep_W0, bigSep_W0]
  show iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t)
        ∗ owns (c : Thread nD τ) (st0_3 t) fullShare ((dat V c).after 3 t)))
  unfold bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_run c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.GateUp

end
-- ==== Proof.Down.lean ====
/-
  The down projection's pallas_call (the second of the two), on its grid of 4 token tiles by 11 tiles of the
  contracted axis, the contracted axis innermost. The body keeps a [1024, 2048] accumulator in a scratch buffer of
  its own: at a point whose second coordinate is 0 it first overwrites the accumulator with zeros; at every point it
  adds to it the product of the staged [1024, 512] block of hidden activations with the transposed staged
  [2048, 512] block of weights; at a point whose second coordinate is 10 it copies the accumulator to the staged
  output block, which the pipeline writes back there and nowhere else. This module proves the body's triple in
  each of the three cases by symbolic execution of the printed function, names what the accumulator holds after
  each point by recursion on the point (`accAt`), and packages this as the pipeline library's proof data — the
  region's invariant carrying the accumulator from point to point — and body obligation, for any float instance and
  any contents `V` of the unscoped buffers at the region's entry.
-/
import proofs.«175893_j678604833231_2_alg».proof.Proof.Gen.KernelIdeal.Launch
import proofs.«175893_j678604833231_2_alg».proof.Proof.Gen.KernelIdeal.Skeleton
import proofs.«175893_j678604833231_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the points whose second coordinate is 0, -/
abbrev isFirst (i : grid1.Coords) : Prop :=
  (Scalar.cmpi .ne (Scalar.extui (Scalar.cmpi .eq (BitVec.ofNat 32 (i 1).val) 0#32)) 0#32) = 1#1
/-- and copied to the output block at those whose second coordinate is 10. -/
abbrev isLast (i : grid1.Coords) : Prop := k1_cond2 i = 1#1
theorem isFirst_iff : ∀ t : Fin cfg1.N, isFirst (grid1.coords t) ↔ t.val % 11 = 0 :=
  (by decide +kernel : ∀ t : Fin grid1.N, isFirst (grid1.coords t) ↔ t.val % 11 = 0)
theorem isLast_iff : ∀ t : Fin cfg1.N, isLast (grid1.coords t) ↔ t.val % 11 = 10 :=
  (by decide +kernel : ∀ t : Fin grid1.N, isLast (grid1.coords t) ↔ t.val % 11 = 10)

abbrev rH : Rect S1024x512 := Rect.unit (s := S1024x512) ![0, 0] S1024x512.size inb_S1024x512_S1024x512_0_0
abbrev rD : Rect S2048x512 := Rect.unit (s := S2048x512) ![0, 0] S2048x512.size inb_S2048x512_S2048x512_0_0
abbrev rO : Rect S1024x2048 := Rect.unit (s := S1024x2048) ![0, 0] S1024x2048.size inb_S1024x2048_S1024x2048_0_0

theorem hz2 : (![0, 0] : Fin 2 → Nat) = fun _ => 0 := by
  funext a; fin_cases a <;> rfl

/-- A store through the whole-buffer rectangle, last, leaves its payload in the buffer whatever was stored before. -/
theorem read_whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self, by
    subst h; show y ∈ (Rect.whole S).set; rw [Rect.set_whole]; exact Finset.mem_univ y⟩)).trans
    (View.canon_cons_unit_zero h inb w L)

/-- The accumulator after a point that adds to what it held (`s`): the product of the two staged blocks added to it. -/
def accStep (h : Vec F S1024x512 .bf16) (wd : Vec F S2048x512 .bf16) (s : Vec F S1024x2048 .f32) : Vec F S1024x2048 .f32 :=
  k1_pay2 (View.ld h rH) (View.ld wd rD) (View.ld s rO)
/-- The accumulator after a point that resets it first: the product added to the zeros just stored. -/
def accFirst (h : Vec F S1024x512 .bf16) (wd : Vec F S2048x512 .bf16) : Vec F S1024x2048 .f32 :=
  k1_pay2 (View.ld h rH) (View.ld wd rD) (k1_pay1 (F := F))

set_option maxHeartbeats 1000000 in
/-- A point that resets the accumulator and does not copy it out: the output's staging buffer comes back untouched. -/
theorem run_first (c : Dev nD) (E : Set ℕ) (i : grid1.Coords) (hc0 : isFirst i) (hc1 : ¬isLast i)
    (a2 : Memref sig .tc .vmem S1024x512 .bf16) (h2 : a2.IsWhole) (a3 : Memref sig .tc .vmem S2048x512 .bf16) (h3 : a3.IsWhole)
    (a4 : Memref sig .tc .vmem S1024x2048 .f32) (h4 : a4.IsWhole) (a5 : Memref sig .tc .vmem S1024x2048 .f32) (h5 : a5.IsWhole)
    (h : Vec F S1024x512 .bf16) (wd : Vec F S2048x512 .bf16) (o : Vec F S1024x2048 .f32) (K : PUnit → sProp 𝕄) :
    iprop(owns (c : Thread nD τ) a2 fullShare h ∗ owns (c : Thread nD τ) a3 fullShare wd
        ∗ owns (c : Thread nD τ) a4 fullShare o ∗ (∃ d, owns (c : Thread nD τ) a5 fullShare d)
        ∗ (iprop(owns (c : Thread nD τ) a2 fullShare h ∗ owns (c : Thread nD τ) a3 fullShare wd
            ∗ owns (c : Thread nD τ) a4 fullShare o ∗ owns (c : Thread nD τ) a5 fullShare (accFirst h wd)) -∗ K ⟨⟩))
      ⊢ wp frame (wpE (defs₀ (F := F)) Variants.none c none) E (cc1__down_kernel i a2 h2 a3 h3 a4 h4 a5 h5) K := by
  simp only [cc1__down_kernel_eq_skeleton]; unfold cc1__down_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  refine (read_whole_store _ _ hz2 _ _ _).trans ?_
  unfold accFirst
  rw [View.readCov_unit_zero _ hz2]
  rfl

set_option maxHeartbeats 1000000 in
/-- A point that only adds to the accumulator: the output's staging buffer comes back untouched. -/
theorem run_mid (c : Dev nD) (E : Set ℕ) (i : grid1.Coords) (hc0 : ¬isFirst i) (hc1 : ¬isLast i)
    (a2 : Memref sig .tc .vmem S1024x512 .bf16) (h2 : a2.IsWhole) (a3 : Memref sig .tc .vmem S2048x512 .bf16) (h3 : a3.IsWhole)
    (a4 : Memref sig .tc .vmem S1024x2048 .f32) (h4 : a4.IsWhole) (a5 : Memref sig .tc .vmem S1024x2048 .f32) (h5 : a5.IsWhole)
    (h : Vec F S1024x512 .bf16) (wd : Vec F S2048x512 .bf16) (o s : Vec F S1024x2048 .f32) (K : PUnit → sProp 𝕄) :
    iprop(owns (c : Thread nD τ) a2 fullShare h ∗ owns (c : Thread nD τ) a3 fullShare wd
        ∗ owns (c : Thread nD τ) a4 fullShare o ∗ owns (c : Thread nD τ) a5 fullShare s
        ∗ (iprop(owns (c : Thread nD τ) a2 fullShare h ∗ owns (c : Thread nD τ) a3 fullShare wd
            ∗ owns (c : Thread nD τ) a4 fullShare o ∗ owns (c : Thread nD τ) a5 fullShare (accStep h wd s)) -∗ K ⟨⟩))
      ⊢ wp frame (wpE (defs₀ (F := F)) Variants.none c none) E (cc1__down_kernel i a2 h2 a3 h3 a4 h4 a5 h5) K := by
  simp only [cc1__down_kernel_eq_skeleton]; unfold cc1__down_kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  exact read_whole_store _ _ hz2 _ _ _

set_option maxHeartbeats 1000000 in
/-- A point that adds to the accumulator and copies it to the output's staging buffer. -/
theorem run_last (c : Dev nD) (E : Set ℕ) (i : grid1.Coords) (hc0 : ¬isFirst i) (hc1 : isLast i)
    (a2 : Memref sig .tc .vmem S1024x512 .bf16) (h2 : a2.IsWhole) (a3 : Memref sig .tc .vmem S2048x512 .bf16) (h3 : a3.IsWhole)
    (a4 : Memref sig .tc .vmem S1024x2048 .f32) (h4 : a4.IsWhole) (a5 : Memref sig .tc .vmem S1024x2048 .f32) (h5 : a5.IsWhole)
    (h : Vec F S1024x512 .bf16) (wd : Vec F S2048x512 .bf16) (s : Vec F S1024x2048 .f32) (K : PUnit → sProp 𝕄) :
    iprop(owns (c : Thread nD τ) a2 fullShare h ∗ owns (c : Thread nD τ) a3 fullShare wd
        ∗ (∃ d, owns (c : Thread nD τ) a4 fullShare d) ∗ owns (c : Thread nD τ) a5 fullShare s
        ∗ (iprop(owns (c : Thread nD τ) a2 fullShare h ∗ owns (c : Thread nD τ) a3 fullShare wd
            ∗ owns (c : Thread nD τ) a4 fullShare (accStep h wd s) ∗ owns (c : Thread nD τ) a5 fullShare (accStep h wd s)) -∗ K ⟨⟩))
      ⊢ wp frame (wpE (defs₀ (F := F)) Variants.none c none) E (cc1__down_kernel i a2 h2 a3 h3 a4 h4 a5 h5) K := by
  simp only [cc1__down_kernel_eq_skeleton]; unfold cc1__down_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read_whole_store _ _ hz2 _ _ _).trans ?_
    rw [View.readCov_unit_zero _ hz2]
    rfl
  iexists _; isplitr
  swap; · iexact H5
  ipureintro
  sl_unfold_run_names
  exact read_whole_store _ _ hz2 _ _ _

variable (V : (c : Dev nD) → (b : Ref sig .tc) → Buf (Elt F) ((c : Thread nD τ).loc b))

/-- Window `w`'s block at grid point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION. What the scratch accumulator holds after the body at position `n`: at a position whose second
    coordinate is 0 the product of that point's blocks over zeros; elsewhere the product added to what the position
    before left. -/
def accAt (c : Dev nD) : (n : ℕ) → n < cfg1.N → Vec F S1024x2048 .f32
  | 0, hn => accFirst (blockAt V c 0 ⟨0, hn⟩) (blockAt V c 1 ⟨0, hn⟩)
  | n + 1, hn =>
    if (n + 1) % 11 = 0 then accFirst (blockAt V c 0 ⟨n + 1, hn⟩) (blockAt V c 1 ⟨n + 1, hn⟩)
    else accStep (blockAt V c 0 ⟨n + 1, hn⟩) (blockAt V c 1 ⟨n + 1, hn⟩) (accAt c n (Nat.lt_of_succ_lt hn))

theorem accAt_first (c : Dev nD) (t : Fin cfg1.N) (h0 : t.val % 11 = 0) :
    accAt V c t.val t.isLt = accFirst (blockAt V c 0 t) (blockAt V c 1 t) := by
  obtain ⟨n, hn⟩ := t
  cases n with
  | zero => rfl
  | succ n => exact (if_pos h0)

theorem accAt_next (c : Dev nD) (t : Fin cfg1.N) (h0 : ¬t.val % 11 = 0) :
    accAt V c t.val t.isLt = accStep (blockAt V c 0 t) (blockAt V c 1 t)
      (accAt V c (t.val - 1) (Nat.lt_of_le_of_lt (Nat.sub_le _ _) t.isLt)) := by
  obtain ⟨n, hn⟩ := t
  cases n with
  | zero => exact absurd (Nat.zero_mod _) h0
  | succ n => exact (if_neg h0)

/-- The scratch accumulator: a whole scoped buffer of the kernel's own, passed beside the windows. -/
abbrev accM : Memref sig .tc .vmem S1024x2048 .f32 := Memref.whole cc1_scratch0

/-- The core's scoped buffers that are no staging buffer of this pallas_call — the first call's eight staging buffers,
    each whole at some contents — around what is said of the accumulator. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

theorem restWith_mono (c : Dev nD) {S S' : sProp 𝕄} (h : S ⊢ S') : restWith (F := F) c S ⊢ restWith c S' := by
  unfold restWith
  iintro ⟨H0, H1, H2, H3, H4, H5, H6, H7, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply h; iexact HS

/-- The class invariant (the scoped rest and the generator register) with the accumulator as a memref owned at some
    contents. -/
theorem PhiA_eq (c : Dev nD) :
    (Pipeline.ΦA spec1 c : sProp 𝕄) = iprop(restWith c (iprop(∃ d, owns (c : Thread nD τ) accM fullShare d)) ∗ (∃ r, prngReg c r)) := by
  unfold Pipeline.ΦA restWith; rw [scopedRest1_eq]; simp only [accM, owns_whole]; try rfl

/-- The region's invariant before position `n`: before the first point the class's (the accumulator at anything);
    afterwards the accumulator at what the point before left, the other scoped buffers at anything, the generator
    register at some state. -/
def PhiAcc (c : Dev nD) : (n : ℕ) → n ≤ cfg1.N → sProp 𝕄
  | 0, _ => Pipeline.ΦA spec1 c
  | n + 1, hn => iprop(restWith c (owns (c : Thread nD τ) accM fullShare (accAt V c n hn)) ∗ (∃ r, prngReg c r))

theorem PhiAcc_zero (c : Dev nD) (n : ℕ) (h : n ≤ cfg1.N) (hz : n = 0) : PhiAcc V c n h = Pipeline.ΦA spec1 c := by
  subst hz; rfl
theorem PhiAcc_succ (c : Dev nD) (n : ℕ) (hn : n < cfg1.N) :
    PhiAcc V c (n + 1) hn = iprop(restWith c (owns (c : Thread nD τ) accM fullShare (accAt V c n hn)) ∗ (∃ r, prngReg c r)) := rfl
theorem PhiAcc_pos (c : Dev nD) (n : ℕ) (h : n ≤ cfg1.N) (hz : n ≠ 0) :
    PhiAcc V c n h = iprop(restWith c (owns (c : Thread nD τ) accM fullShare (accAt V c (n - 1) (by omega))) ∗ (∃ r, prngReg c r)) := by
  cases n with
  | zero => exact absurd rfl hz
  | succ n => rfl

/-- At any position the invariant gives the class's back: what the accumulator holds is forgotten. -/
theorem PhiAcc_forget (c : Dev nD) (n : ℕ) (h : n ≤ cfg1.N) : PhiAcc V c n h ⊢ Pipeline.ΦA spec1 c := by
  cases n with
  | zero => exact .rfl
  | succ n =>
    rw [PhiAcc_succ, PhiA_eq]
    iintro ⟨HR, Hg⟩
    have hw : owns (c : Thread nD τ) accM fullShare (accAt V c n h) ⊢ (iprop(∃ d, owns (c : Thread nD τ) accM fullShare d) : sProp 𝕄) := by
      iintro H; iexists _; iexact H
    isplitl [HR]
    · iapply (restWith_mono c hw)
      iexact HR
    iexact Hg

/-- The same with the scoped buffers listed. -/
theorem PhiAcc_open (c : Dev nD) (n : ℕ) (h : n ≤ cfg1.N) : PhiAcc V c n h ⊢
    (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ ∃ d, owns (c : Thread nD τ) accM fullShare d) ∗ (∃ r, prngReg c r)) : sProp 𝕄) := by
  have := PhiAcc_forget V c n h
  rw [PhiA_eq] at this; unfold restWith at this; exact this

/-- The proof data on core `c`: the arrays as the region finds them; after the body each input's buffer at its block
    and the output's at the accumulator's contents (consulted only where the body stores it); the invariant
    `PhiAcc`; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => accAt V c t.val t.isLt
  Φ t := PhiAcc V c t.val (Nat.le_of_lt_succ t.isLt)
  q _ := fullShare
  owed _ := 0

theorem dat_A (c : Dev nD) (w : Fin cfg1.W) : (dat V c).A w = V c (Pipeline.arrRef spec1 w) := by
  dsimp only [dat]
theorem Phi_castSucc (c : Dev nD) (t : Fin cfg1.N) : (dat V c).Φ t.castSucc = PhiAcc V c t.val (Nat.le_of_lt t.isLt) := by
  dsimp only [dat]; simp only [Fin.coe_castSucc]
theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = accAt V c t.val t.isLt := by dsimp only [dat]

theorem before_0 (c : Dev nD) (t : Fin cfg1.N) (d) : (dat V c).before 0 t d = blockAt V c 0 t :=
  ((dat V c).before_in_eq_fetched 0 rfl (by decide +kernel) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg1.N) (d) : (dat V c).before 1 t d = blockAt V c 1 t :=
  ((dat V c).before_in_eq_fetched 1 rfl (by decide +kernel) (fun _ _ _ => rfl)
    (fun t => by rw [after_1]; unfold Dat.blockOf blockAt; rw [dat_A]; try rfl) t d).trans
    (by unfold Dat.fetched Dat.blockOf blockAt; rw [dat_A]; try rfl)

/-- Where the windows are idle: the inputs never; the output wherever the accumulator is not copied out, and there
    the pipeline does not write it back. -/
theorem live_0 : ∀ t : Fin cfg1.N, cfg1.idle 0 (grid1.coords t) = false := by decide +kernel
theorem live_1 : ∀ t : Fin cfg1.N, cfg1.idle 1 (grid1.coords t) = false := by decide +kernel
theorem idle_2 : ∀ t : Fin cfg1.N, ¬isLast (grid1.coords t) → cfg1.idle 2 (grid1.coords t) = true := by decide +kernel
theorem noFlush_2 : ∀ t : Fin cfg1.N, ¬isLast (grid1.coords t) → (cfg1.win 2).flush t = false := by decide +kernel
theorem live_2 : ∀ t : Fin cfg1.N, isLast (grid1.coords t) → cfg1.idle 2 (grid1.coords t) = false := by decide +kernel

set_option maxHeartbeats 4000000 in
/-- The body at any point: the inputs' memrefs hold their blocks; the closed forms say which case the point is in; the
    invariant hands the body the accumulator at what the point before left (at anything where it is reset) and takes
    it back at this point's contents; the core owes nothing throughout. -/
theorem sound_body (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d)))
    ⊢ wp frame (wpE (defs₀ (F := F)) Variants.none c none) Set.univ (bodyAt1 t) (fun _ =>
      iprop((dat V c).Φ t.succ ∗ (dat V c).owesAt () t.succ
        ∗ (dat V c).leavesExact 0 t ∗ (dat V c).leavesExact 1 t ∗ (dat V c).leavesExact 2 t)) := by
  unfold bodyAt1
  simp only [before_0, before_1]
  rw [show (dat V c).owesAt () t.succ = (dat V c).owesAt () t.castSucc from rfl]
  rw [show (dat V c).Φ t.succ = PhiAcc V c (t.val + 1) t.isLt from rfl, PhiAcc_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  have hN : t.val < 44 := lt_of_lt_of_eq t.isLt (show cfg1.N = 44 from N_1)
  by_cases h0 : t.val % 11 = 0
  · have h1 : ¬t.val % 11 = 10 := by omega
    have hl : ¬isLast (grid1.coords t) := fun h => h1 ((isLast_iff t).mp h)
    rw [Dat.leavesExact_idle (dat V c) 2 t (idle_2 t hl) (noFlush_2 t hl)]
    rw [accAt_first V c t h0]
    rw [Phi_castSucc V c t]
    unfold restWith
    iintro ⟨HP, Ho, ⟨%d0, H0⟩, ⟨%d1, H1⟩, ⟨%d2, H2⟩⟩
    ihave HQ := (PhiAcc_open V c _ _) $$ HP
    icases HQ with ⟨⟨R0, R1, R2, R3, R4, R5, R6, R7, HS⟩, Hg⟩
    iapply (run_first c Set.univ (grid1.coords t) ((isFirst_iff t).mpr h0) hl _ _ _ _ _ _ _ _ (blockAt V c 0 t) (blockAt V c 1 t) _ _)
    isplitl [H0]; · iexact H0
    isplitl [H1]; · iexact H1
    isplitl [H2]; · iexact H2
    isplitl [HS]; · iexact HS
    iintro ⟨H0, H1, H2, HS⟩
    isplitl [R0 R1 R2 R3 R4 R5 R6 R7 HS Hg]
    · isplitr [Hg]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact HS
      iexact Hg
    isplitl [Ho]; · iexact Ho
    isplitl [H0]; · iexact H0
    isplitl [H1]; · iexact H1
    iexists _; iexact H2
  · have hz : t.val ≠ 0 := fun e => h0 (by rw [e])
    have hf : ¬isFirst (grid1.coords t) := fun h => h0 ((isFirst_iff t).mp h)
    rw [accAt_next V c t h0]
    rw [Phi_castSucc V c t, PhiAcc_pos V c _ _ hz]
    unfold restWith
    by_cases h1 : t.val % 11 = 10
    · have hl : isLast (grid1.coords t) := (isLast_iff t).mpr h1
      rw [show (dat V c).leavesExact 2 t = owns (c : Thread nD τ) (st1_2 t) fullShare ((dat V c).after 2 t) from by
        unfold Dat.leavesExact; rw [live_2 t hl], after_2, accAt_next V c t h0]
      iintro ⟨⟨⟨R0, R1, R2, R3, R4, R5, R6, R7, HS⟩, Hg⟩, Ho, ⟨%d0, H0⟩, ⟨%d1, H1⟩, ⟨%d2, H2⟩⟩
      iapply (run_last c Set.univ (grid1.coords t) hf hl _ _ _ _ _ _ _ _ (blockAt V c 0 t) (blockAt V c 1 t) _ _)
      isplitl [H0]; · iexact H0
      isplitl [H1]; · iexact H1
      isplitl [H2]; · iexists _; iexact H2
      isplitl [HS]; · iexact HS
      iintro ⟨H0, H1, H2, HS⟩
      isplitl [R0 R1 R2 R3 R4 R5 R6 R7 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexact H2
    · have hl : ¬isLast (grid1.coords t) := fun h => h1 ((isLast_iff t).mp h)
      rw [Dat.leavesExact_idle (dat V c) 2 t (idle_2 t hl) (noFlush_2 t hl)]
      iintro ⟨⟨⟨R0, R1, R2, R3, R4, R5, R6, R7, HS⟩, Hg⟩, Ho, ⟨%d0, H0⟩, ⟨%d1, H1⟩, ⟨%d2, H2⟩⟩
      iapply (run_mid c Set.univ (grid1.coords t) hf hl _ _ _ _ _ _ _ _ (blockAt V c 0 t) (blockAt V c 1 t) _ _ _)
      isplitl [H0]; · iexact H0
      isplitl [H1]; · iexact H1
      isplitl [H2]; · iexact H2
      isplitl [HS]; · iexact HS
      iintro ⟨H0, H1, H2, HS⟩
      isplitl [R0 R1 R2 R3 R4 R5 R6 R7 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point, -/
theorem hin (c : Dev nD) : Pipeline.ΦA spec1 c ⊢ (dat V c).Φ 0 := by
  rw [show (dat V c).Φ 0 = PhiAcc V c 0 (Nat.zero_le _) from rfl, PhiAcc_zero V c 0 _ rfl]
  try exact Idealize.SL.BI.Entails.refl _
/-- and after the last point the invariant gives it back. -/
theorem hout (c : Dev nD) : (dat V c).Φ (Fin.last cfg1.N) ⊢ Pipeline.ΦA spec1 c :=
  by
  rw [show (dat V c).Φ (Fin.last cfg1.N) = PhiAcc V c (Fin.last cfg1.N).val (Nat.le_of_lt_succ (Fin.last cfg1.N).isLt) from rfl]
  exact PhiAcc_forget V c _ _

end Cert.KernelIdeal.Down

end
-- ==== Proof.TwoCalls.lean ====
/-
  The whole run of the program: @main is a stretch of host operations (the three weight matrices gathered from their
  codebooks, scaled and converted; the activations converted), then the gate/up pallas_call, then the down
  pallas_call. Composed with the pipeline library's launch theorem for a program of several kernel regions: between
  two items each core holds every unscoped buffer whole at a valuation named here — the launch contents, then the
  host operations applied, then the first call's arrays at what its pipeline leaves, then the second call's —, the
  generator register and the core owing nothing riding along. The conclusion reads EVERY unscoped buffer of the final
  memory at the last valuation, from which the frame (no item writes an argument) and the result array are read off.
-/
import proofs.«175893_j678604833231_2_alg».proof.Proof.GateUp
import proofs.«175893_j678604833231_2_alg».proof.Proof.Down
import proofs.«175893_j678604833231_2_alg».proof.Proof.Gen.KernelIdeal.Regions

set_option maxRecDepth 16384

noncomputable section

namespace Cert.KernelIdeal.TwoCalls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch; -/
abbrev atLaunch : Dev nD → Valuation τ sig (Elt F) := fun c b => m (c, b)
/-- after the host operations (the gate/up call's entry); -/
abbrev atHost : Dev nD → Valuation τ sig (Elt F) := fun c => StableHlo.after hostOps0 (atLaunch m c)
abbrev atHostR : (c : Dev nD) → (b : Ref sig .tc) → Buf (Elt F) ((c : Thread nD τ).loc b) := fun c b => atHost m c b
/-- after the gate/up call: its arrays at what its pipeline leaves, every other buffer as entered; -/
def atMid (c : Dev nD) : Valuation τ sig (Elt F) :=
  Pipeline.withArrays spec0 c (atHost m c) fun w => (GateUp.dat (atHostR m) c).arrAt w cfg0.N
abbrev atMidR : (c : Dev nD) → (b : Ref sig .tc) → Buf (Elt F) ((c : Thread nD τ).loc b) := fun c b => atMid m c b
/-- after the down call. -/
def atEnd (c : Dev nD) : Valuation τ sig (Elt F) :=
  Pipeline.withArrays spec1 c (atMid m c) fun w => (Down.dat (atMidR m) c).arrAt w cfg1.N
abbrev atEndR : (c : Dev nD) → (b : Ref sig .tc) → Buf (Elt F) ((c : Thread nD τ).loc b) := fun c b => atEnd m c b

theorem atMid_arr (c : Dev nD) (w : Fin cfg0.W) :
    atMid m c (Proc.devRef .tc (Pipeline.arrRef spec0 w)) = (GateUp.dat (atHostR m) c).arrAt w cfg0.N := by
  unfold atMid; exact Pipeline.withArrays_arr spec0 launch0.win.arr_inj c _ _ w
theorem atMid_of_ne (c : Dev nD) (b : Ref sig .tc) (hb : ∀ w, Pipeline.arrRef spec0 w ≠ b) :
    atMid m c (Proc.devRef .tc b) = atHost m c (Proc.devRef .tc b) := by
  unfold atMid; exact Pipeline.withArrays_of_ne spec0 c _ _ b hb
theorem atEnd_arr (c : Dev nD) (w : Fin cfg1.W) :
    atEnd m c (Proc.devRef .tc (Pipeline.arrRef spec1 w)) = (Down.dat (atMidR m) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m c (Proc.devRef .tc b) = atMid m c (Proc.devRef .tc b) := by
  unfold atEnd; exact Pipeline.withArrays_of_ne spec1 c _ _ b hb

theorem mid_arr (c : Dev nD) (w : Fin cfg0.W) : (GateUp.dat (atHostR m) c).arrAt w cfg0.N = atMidR m c (Pipeline.arrRef spec0 w) :=
  (atMid_arr m c w).symm
theorem mid_rest (c : Dev nD) : ∀ b, b ∉ Finset.univ.image (Pipeline.arrRef spec0) → atMidR m c b = atHostR m c b :=
  fun b hb => atMid_of_ne m c b fun w e => hb (Finset.mem_image.mpr ⟨w, Finset.mem_univ _, e⟩)
theorem end_arr (c : Dev nD) (w : Fin cfg1.W) : (Down.dat (atMidR m) c).arrAt w cfg1.N = atEndR m c (Pipeline.arrRef spec1 w) :=
  (atEnd_arr m c w).symm
theorem end_rest (c : Dev nD) : ∀ b, b ∉ Finset.univ.image (Pipeline.arrRef spec1) → atEndR m c b = atMidR m c b :=
  fun b hb => atEnd_of_ne m c b fun w e => hb (Finset.mem_image.mpr ⟨w, Finset.mem_univ _, e⟩)

/-- An argument reaches the end as launched: no host operation writes it and it is no array of either call. -/
theorem atEnd_arg (c : Dev nD) (r : Ref sig .tc) (h0 : ∀ w, Pipeline.arrRef spec0 w ≠ r) (h1 : ∀ w, Pipeline.arrRef spec1 w ≠ r)
    (hh : r ∉ hostOps0_W) : atEnd m c (Proc.devRef .tc r) = m ((c : Thread nD τ).loc r) :=
  (atEnd_of_ne m c r h1).trans ((atMid_of_ne m c r h0).trans (StableHlo.after_of_writes_sub hostOps0 _ hostOps0_writes hh))

/-! ## The proof data family and the thread state -/

def pdats : (p : Fin 2) → (c : Dev nD) → Dat τ (Elt F) Unit ℕ (UR sig nD τ) ℕ (Pipeline.pin (pcfgs (F := F)) adm p) c
  | ⟨0, _⟩ => fun c => GateUp.dat (atHostR m) c
  | ⟨1, _⟩ => fun c => Down.dat (atMidR m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (atLaunch m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (atEnd m c) ∗ ∃ r, prngReg c r)

/-! ## The two calls as segments -/

set_option backward.isDefEq.respectTransparency.types false in
/-- The gate/up call: entered from every unscoped buffer at `atHost`, left at `atMid`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (GateUp.body_obligation (atHostR m) c).loose
  hwaits := Pipeline.hwaits_of_owed_zero _ _ _ _ L lv 0 fun _ _ => rfl
  pre c := iprop(StableHlo.held (c : Thread nD τ) (Pipeline.ucRefs τ sig) (atHost m c) ∗ R c)
  post c := iprop(StableHlo.held (c : Thread nD τ) (Pipeline.ucRefs τ sig) (atMid m c) ∗ R c)
  X c := iprop(∃ r, prngReg c r)
  Y c := iprop(∃ r, prngReg c r)
  Z c := Pipeline.unscopedRest (Ix := Unit) (Name := ℕ) (U := UR sig nD τ) (Lvl := ℕ) spec0 c (atHostR m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atHostR m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atHostR m c) (atMidR m c) ((pdats m 0 c).arrAt · cfg0.N) (mid_arr m c) (mid_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down call: entered from every unscoped buffer at `atMid`, left at `atEnd`; its invariant takes the scoped
    rest and the generator register in and gives them back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Down.body_obligation (atMidR m) c).loose
  hwaits := Pipeline.hwaits_of_owed_zero _ _ _ _ L lv 1 fun _ _ => rfl
  pre c := iprop(StableHlo.held (c : Thread nD τ) (Pipeline.ucRefs τ sig) (atMid m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (atMidR m c)
  hentry c := by
    rw [Pipeline.ownSems0_none]
    have hsplit := Pipeline.arrays_of_unscopedBufs (p := 1) (pcfgs (F := F)) adm (pdats m) launch1.win launch1.arr_whole c
      ((pdats m 1 c).share_full fun _ => rfl) (atMidR m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Down.hin (atMidR m) c)
    unfold Pipeline.ΦA
    iintro ⟨Hp, -, Hr⟩
    isplitl [Hr]; · iexact Hr
    iexact Hp
  hout c := by
    refine BIBase.Entails.trans (Down.hout (atMidR m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atMidR m c) (atEndR m c) ((pdats m 1 c).arrAt · cfg1.N) (end_arr m c) (end_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg m), .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final state has every unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h => h)

/-- A final memory read at the last valuation has every argument array as launched. -/
theorem kept (r : PUnit × MemSt nD τ sig (Elt F)) (h : ∀ c : Dev nD, ∀ b ∈ Pipeline.ucRefs τ sig, r.2.mem (((c : Thread nD τ)).1, b) = atEnd m c b)
    (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9) :=
  ⟨(h c _ (mem_uc main_arg0 (by decide))).trans (atEnd_arg m c main_arg0 (by decide) (by decide) (by decide)),
    (h c _ (mem_uc main_arg1 (by decide))).trans (atEnd_arg m c main_arg1 (by decide) (by decide) (by decide)),
    (h c _ (mem_uc main_arg2 (by decide))).trans (atEnd_arg m c main_arg2 (by decide) (by decide) (by decide)),
    (h c _ (mem_uc main_arg3 (by decide))).trans (atEnd_arg m c main_arg3 (by decide) (by decide) (by decide)),
    (h c _ (mem_uc main_arg4 (by decide))).trans (atEnd_arg m c main_arg4 (by decide) (by decide) (by decide)),
    (h c _ (mem_uc main_arg5 (by decide))).trans (atEnd_arg m c main_arg5 (by decide) (by decide) (by decide)),
    (h c _ (mem_uc main_arg6 (by decide))).trans (atEnd_arg m c main_arg6 (by decide) (by decide) (by decide)),
    (h c _ (mem_uc main_arg7 (by decide))).trans (atEnd_arg m c main_arg7 (by decide) (by decide) (by decide)),
    (h c _ (mem_uc main_arg8 (by decide))).trans (atEnd_arg m c main_arg8 (by decide) (by decide) (by decide)),
    (h c _ (mem_uc main_arg9 (by decide))).trans (atEnd_arg m c main_arg9 (by decide) (by decide) (by decide))⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => kept m r h c) (run_main m ρ)

/-- The result array after the run is what the down call's pipeline leaves in its output's array. -/
theorem result (r : PUnit × MemSt nD τ sig (Elt F)) (h : ∀ c : Dev nD, ∀ b ∈ Pipeline.ucRefs τ sig, r.2.mem (((c : Thread nD τ)).1, b) = atEnd m c b)
    (c : Dev nD) : r.2.mem ((c.tc : Thread nD τ).loc main_v38) = (Down.dat (atMidR m) c).arrAt 2 cfg1.N :=
  (h c _ (mem_uc main_v38 (by decide))).trans (atEnd_arr m c 2)

end Cert.KernelIdeal.TwoCalls

end
-- ==== Proof.GateUpBits.lean ====
/-
  The gate/up projection's pallas_call (the first of the two), on its grid of 4 token tiles by 11 column tiles.
  At a grid point the body reads three staged blocks — 1024 rows of the activations, 512 rows of the gate weights,
  512 rows of the up weights — and overwrites the staged output block [1024, 512] with ONE store of
  silu(x·Wgᵀ) ⊙ (x·Wuᵀ) of those blocks. Nothing is carried from point to point, every window's blocks tile its
  array, and the output block is written back at every point. This module states what the body leaves in the output's
  staging buffer as a function of the three input blocks, proves the body's triple by symbolic execution of the
  printed function, and packages both as the pipeline library's proof data and body obligation, for any float
  instance and any contents `V` of the unscoped buffers at the region's entry.
-/
import proofs.«175893_j678604833231_2_alg».proof.Proof.Gen.Kernel.Launch
import proofs.«175893_j678604833231_2_alg».proof.Proof.Gen.Kernel.Skeleton
import proofs.«175893_j678604833231_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body loads and stores through. -/
abbrev rX : Rect S1024x2048 := Rect.unit (s := S1024x2048) ![0, 0] S1024x2048.size inb_S1024x2048_S1024x2048_0_0
abbrev rW : Rect S512x2048 := Rect.unit (s := S512x2048) ![0, 0] S512x2048.size inb_S512x2048_S512x2048_0_0
abbrev rH : Rect S1024x512 := Rect.unit (s := S1024x512) ![0, 0] S1024x512.size inb_S1024x512_S1024x512_0_0

/-- What the body leaves in the output's staging buffer, from the three input blocks: its one store, the block whole. -/
def hidden (x : Vec F S1024x2048 .bf16) (wg wu : Vec F S512x2048 .bf16) : Vec F S1024x512 .bf16 :=
  View.canon [⟨rH, k0_pay1 (View.ld x rX) (View.ld wg rW) (View.ld wu rW)⟩]

/-- The one store covers the output block. -/
theorem hidden_cover (p : Vec F S1024x512 .bf16) (y : S1024x512.Idx) :
    ∃ pc ∈ ([⟨rH, p⟩] : List (View.Piece (Elt F) S1024x512 .bf16)), y ∈ pc.1.set :=
  View.cover_of_tiled [⟨rH, p⟩] S1024x512.size (by rfl) y

set_option maxHeartbeats 1000000 in
/-- The body on whole staging memrefs: the inputs' at read contents, the output's at anything, runs to the
    continuation holding the inputs' as they were and the output's at `hidden` of them. -/
theorem body_run (c : Dev nD) (E : Set ℕ) (i : grid0.Coords)
    (a2 : Memref sig .tc .vmem S1024x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S1024x512 .bf16) (h5 : a5.IsWhole)
    (x : Vec F S1024x2048 .bf16) (wg wu : Vec F S512x2048 .bf16) (K : PUnit → sProp 𝕄) :
    iprop(owns (c : Thread nD τ) a2 fullShare x ∗ owns (c : Thread nD τ) a3 fullShare wg ∗ owns (c : Thread nD τ) a4 fullShare wu
        ∗ (∃ d, owns (c : Thread nD τ) a5 fullShare d)
        ∗ (iprop(owns (c : Thread nD τ) a2 fullShare x ∗ owns (c : Thread nD τ) a3 fullShare wg ∗ owns (c : Thread nD τ) a4 fullShare wu
            ∗ owns (c : Thread nD τ) a5 fullShare (hidden x wg wu)) -∗ K ⟨⟩))
      ⊢ wp frame (wpE (defs₀ (F := F)) Variants.none c none) E (cc0__gateup_kernel i a2 h2 a3 h3 a4 h4 a5 h5) K := by
  simp only [cc0__gateup_kernel_eq_skeleton]; unfold cc0__gateup_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (hidden_cover _)

/-- The proof data on core `c`: the arrays as the region finds them; after the body each input's buffer at its block
    and the output's at `hidden` of the three blocks; the invariant the scoped rest and the generator register,
    untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => hidden (blockAt V c 0 t) (blockAt V c 1 t) (blockAt V c 2 t)
  Φ _ := Pipeline.ΦA spec0 c
  q _ := fullShare
  owed _ := 0

theorem dat_A (c : Dev nD) (w : Fin cfg0.W) : (dat V c).A w = V c (Pipeline.arrRef spec0 w) := by
  dsimp only [dat]
theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) : (dat V c).after 2 t = blockAt V c 2 t := by dsimp only [dat]
theorem after_3 (c : Dev nD) (t : Fin cfg0.N) :
    (dat V c).after 3 t = hidden (blockAt V c 0 t) (blockAt V c 1 t) (blockAt V c 2 t) := by dsimp only [dat]

/-- Each input's current staging buffer holds its block at every point, fetched there or not (an unfetched
    window's block index has not moved since the point that fetched it). -/
theorem before_0 (c : Dev nD) (t : Fin cfg0.N) (d) : (dat V c).before 0 t d = blockAt V c 0 t :=
  ((dat V c).before_in_eq_fetched 0 rfl (fun _ => rfl) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg0.N) (d) : (dat V c).before 1 t d = blockAt V c 1 t :=
  ((dat V c).before_in_eq_fetched 1 rfl (fun _ => rfl) (fun _ _ _ => rfl)
    (fun t => by rw [after_1]; unfold Dat.blockOf blockAt; rw [dat_A]; try rfl) t d).trans
    (by unfold Dat.fetched Dat.blockOf blockAt; rw [dat_A]; try rfl)
theorem before_2 (c : Dev nD) (t : Fin cfg0.N) (d) : (dat V c).before 2 t d = blockAt V c 2 t :=
  ((dat V c).before_in_eq_fetched 2 rfl (fun _ => rfl) (fun _ _ _ => rfl)
    (fun t => by rw [after_2]; unfold Dat.blockOf blockAt; rw [dat_A]; try rfl) t d).trans
    (by unfold Dat.fetched Dat.blockOf blockAt; rw [dat_A]; try rfl)

/-- The library's body obligation, at every point: the inputs' memrefs hold their blocks, so `body_run` applies; the
    invariant and the core's dues pass through unread. -/
theorem body_obligation (c : Dev nD) : BodyObligation (dat (F := F) V c) (defs₀ (F := F)) Variants.none () Set.univ := fun t => by
  rw [bigSep_W0, bigSep_W0]
  show iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t)
        ∗ owns (c : Thread nD τ) (st0_3 t) fullShare ((dat V c).after 3 t)))
  unfold bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_run c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.GateUp

end
-- ==== Proof.DownBits.lean ====
/-
  The down projection's pallas_call (the second of the two), on its grid of 4 token tiles by 11 tiles of the
  contracted axis, the contracted axis innermost. The body keeps a [1024, 2048] accumulator in a scratch buffer of
  its own: at a point whose second coordinate is 0 it first overwrites the accumulator with zeros; at every point it
  adds to it the product of the staged [1024, 512] block of hidden activations with the transposed staged
  [2048, 512] block of weights; at a point whose second coordinate is 10 it copies the accumulator to the staged
  output block, which the pipeline writes back there and nowhere else. This module proves the body's triple in
  each of the three cases by symbolic execution of the printed function, names what the accumulator holds after
  each point by recursion on the point (`accAt`), and packages this as the pipeline library's proof data — the
  region's invariant carrying the accumulator from point to point — and body obligation, for any float instance and
  any contents `V` of the unscoped buffers at the region's entry.
-/
import proofs.«175893_j678604833231_2_alg».proof.Proof.Gen.Kernel.Launch
import proofs.«175893_j678604833231_2_alg».proof.Proof.Gen.Kernel.Skeleton
import proofs.«175893_j678604833231_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator is reset at the points whose second coordinate is 0, -/
abbrev isFirst (i : grid1.Coords) : Prop :=
  (Scalar.cmpi .ne (Scalar.extui (Scalar.cmpi .eq (BitVec.ofNat 32 (i 1).val) 0#32)) 0#32) = 1#1
/-- and copied to the output block at those whose second coordinate is 10. -/
abbrev isLast (i : grid1.Coords) : Prop := k1_cond2 i = 1#1
theorem isFirst_iff : ∀ t : Fin cfg1.N, isFirst (grid1.coords t) ↔ t.val % 11 = 0 :=
  (by decide +kernel : ∀ t : Fin grid1.N, isFirst (grid1.coords t) ↔ t.val % 11 = 0)
theorem isLast_iff : ∀ t : Fin cfg1.N, isLast (grid1.coords t) ↔ t.val % 11 = 10 :=
  (by decide +kernel : ∀ t : Fin grid1.N, isLast (grid1.coords t) ↔ t.val % 11 = 10)

abbrev rH : Rect S1024x512 := Rect.unit (s := S1024x512) ![0, 0] S1024x512.size inb_S1024x512_S1024x512_0_0
abbrev rD : Rect S2048x512 := Rect.unit (s := S2048x512) ![0, 0] S2048x512.size inb_S2048x512_S2048x512_0_0
abbrev rO : Rect S1024x2048 := Rect.unit (s := S1024x2048) ![0, 0] S1024x2048.size inb_S1024x2048_S1024x2048_0_0

theorem hz2 : (![0, 0] : Fin 2 → Nat) = fun _ => 0 := by
  funext a; fin_cases a <;> rfl

/-- A store through the whole-buffer rectangle, last, leaves its payload in the buffer whatever was stored before. -/
theorem read_whole_store {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self, by
    subst h; show y ∈ (Rect.whole S).set; rw [Rect.set_whole]; exact Finset.mem_univ y⟩)).trans
    (View.canon_cons_unit_zero h inb w L)

/-- The accumulator after a point that adds to what it held (`s`): the product of the two staged blocks added to it. -/
def accStep (h : Vec F S1024x512 .bf16) (wd : Vec F S2048x512 .bf16) (s : Vec F S1024x2048 .f32) : Vec F S1024x2048 .f32 :=
  k1_pay2 (View.ld h rH) (View.ld wd rD) (View.ld s rO)
/-- The accumulator after a point that resets it first: the product added to the zeros just stored. -/
def accFirst (h : Vec F S1024x512 .bf16) (wd : Vec F S2048x512 .bf16) : Vec F S1024x2048 .f32 :=
  k1_pay2 (View.ld h rH) (View.ld wd rD) (k1_pay1 (F := F))

set_option maxHeartbeats 1000000 in
/-- A point that resets the accumulator and does not copy it out: the output's staging buffer comes back untouched. -/
theorem run_first (c : Dev nD) (E : Set ℕ) (i : grid1.Coords) (hc0 : isFirst i) (hc1 : ¬isLast i)
    (a2 : Memref sig .tc .vmem S1024x512 .bf16) (h2 : a2.IsWhole) (a3 : Memref sig .tc .vmem S2048x512 .bf16) (h3 : a3.IsWhole)
    (a4 : Memref sig .tc .vmem S1024x2048 .f32) (h4 : a4.IsWhole) (a5 : Memref sig .tc .vmem S1024x2048 .f32) (h5 : a5.IsWhole)
    (h : Vec F S1024x512 .bf16) (wd : Vec F S2048x512 .bf16) (o : Vec F S1024x2048 .f32) (K : PUnit → sProp 𝕄) :
    iprop(owns (c : Thread nD τ) a2 fullShare h ∗ owns (c : Thread nD τ) a3 fullShare wd
        ∗ owns (c : Thread nD τ) a4 fullShare o ∗ (∃ d, owns (c : Thread nD τ) a5 fullShare d)
        ∗ (iprop(owns (c : Thread nD τ) a2 fullShare h ∗ owns (c : Thread nD τ) a3 fullShare wd
            ∗ owns (c : Thread nD τ) a4 fullShare o ∗ owns (c : Thread nD τ) a5 fullShare (accFirst h wd)) -∗ K ⟨⟩))
      ⊢ wp frame (wpE (defs₀ (F := F)) Variants.none c none) E (cc1__down_kernel i a2 h2 a3 h3 a4 h4 a5 h5) K := by
  simp only [cc1__down_kernel_eq_skeleton]; unfold cc1__down_kernel_skel
  unfold owns
  iintro ⟨⟨%f2, %hf2, H2⟩, ⟨%f3, %hf3, H3⟩, ⟨%f4, %hf4, H4⟩, ⟨%d5, %f5, -, H5⟩, Hk⟩
  subst hf2; subst hf3; subst hf4
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  refine (read_whole_store _ _ hz2 _ _ _).trans ?_
  unfold accFirst
  rw [View.readCov_unit_zero _ hz2]
  rfl

set_option maxHeartbeats 1000000 in
/-- A point that only adds to the accumulator: the output's staging buffer comes back untouched. -/
theorem run_mid (c : Dev nD) (E : Set ℕ) (i : grid1.Coords) (hc0 : ¬isFirst i) (hc1 : ¬isLast i)
    (a2 : Memref sig .tc .vmem S1024x512 .bf16) (h2 : a2.IsWhole) (a3 : Memref sig .tc .vmem S2048x512 .bf16) (h3 : a3.IsWhole)
    (a4 : Memref sig .tc .vmem S1024x2048 .f32) (h4 : a4.IsWhole) (a5 : Memref sig .tc .vmem S1024x2048 .f32) (h5 : a5.IsWhole)
    (h : Vec F S1024x512 .bf16) (wd : Vec F S2048x512 .bf16) (o s : Vec F S1024x2048 .f32) (K : PUnit → sProp 𝕄) :
    iprop(owns (c : Thread nD τ) a2 fullShare h ∗ owns (c : Thread nD τ) a3 fullShare wd
        ∗ owns (c : Thread nD τ) a4 fullShare o ∗ owns (c : Thread nD τ) a5 fullShare s
        ∗ (iprop(owns (c : Thread nD τ) a2 fullShare h ∗ owns (c : Thread nD τ) a3 fullShare wd
            ∗ owns (c : Thread nD τ) a4 fullShare o ∗ owns (c : Thread nD τ) a5 fullShare (accStep h wd s)) -∗ K ⟨⟩))
      ⊢ wp frame (wpE (defs₀ (F := F)) Variants.none c none) E (cc1__down_kernel i a2 h2 a3 h3 a4 h4 a5 h5) K := by
  simp only [cc1__down_kernel_eq_skeleton]; unfold cc1__down_kernel_skel
  unfold owns
  iintro ⟨⟨%f2, %hf2, H2⟩, ⟨%f3, %hf3, H3⟩, ⟨%f4, %hf4, H4⟩, ⟨%f5, %hf5, H5⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  exact read_whole_store _ _ hz2 _ _ _

set_option maxHeartbeats 1000000 in
/-- A point that adds to the accumulator and copies it to the output's staging buffer. -/
theorem run_last (c : Dev nD) (E : Set ℕ) (i : grid1.Coords) (hc0 : ¬isFirst i) (hc1 : isLast i)
    (a2 : Memref sig .tc .vmem S1024x512 .bf16) (h2 : a2.IsWhole) (a3 : Memref sig .tc .vmem S2048x512 .bf16) (h3 : a3.IsWhole)
    (a4 : Memref sig .tc .vmem S1024x2048 .f32) (h4 : a4.IsWhole) (a5 : Memref sig .tc .vmem S1024x2048 .f32) (h5 : a5.IsWhole)
    (h : Vec F S1024x512 .bf16) (wd : Vec F S2048x512 .bf16) (s : Vec F S1024x2048 .f32) (K : PUnit → sProp 𝕄) :
    iprop(owns (c : Thread nD τ) a2 fullShare h ∗ owns (c : Thread nD τ) a3 fullShare wd
        ∗ (∃ d, owns (c : Thread nD τ) a4 fullShare d) ∗ owns (c : Thread nD τ) a5 fullShare s
        ∗ (iprop(owns (c : Thread nD τ) a2 fullShare h ∗ owns (c : Thread nD τ) a3 fullShare wd
            ∗ owns (c : Thread nD τ) a4 fullShare (accStep h wd s) ∗ owns (c : Thread nD τ) a5 fullShare (accStep h wd s)) -∗ K ⟨⟩))
      ⊢ wp frame (wpE (defs₀ (F := F)) Variants.none c none) E (cc1__down_kernel i a2 h2 a3 h3 a4 h4 a5 h5) K := by
  simp only [cc1__down_kernel_eq_skeleton]; unfold cc1__down_kernel_skel
  unfold owns
  iintro ⟨⟨%f2, %hf2, H2⟩, ⟨%f3, %hf3, H3⟩, ⟨%d4, %f4, -, H4⟩, ⟨%f5, %hf5, H5⟩, Hk⟩
  subst hf2; subst hf3; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read_whole_store _ _ hz2 _ _ _).trans ?_
    rw [View.readCov_unit_zero _ hz2]
    rfl
  iexists _; isplitr
  swap; · iexact H5
  ipureintro
  sl_unfold_run_names
  exact read_whole_store _ _ hz2 _ _ _

variable (V : (c : Dev nD) → (b : Ref sig .tc) → Buf (Elt F) ((c : Thread nD τ).loc b))

/-- Window `w`'s block at grid point `t`, read off its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- THE ACCUMULATION. What the scratch accumulator holds after the body at position `n`: at a position whose second
    coordinate is 0 the product of that point's blocks over zeros; elsewhere the product added to what the position
    before left. -/
def accAt (c : Dev nD) : (n : ℕ) → n < cfg1.N → Vec F S1024x2048 .f32
  | 0, hn => accFirst (blockAt V c 0 ⟨0, hn⟩) (blockAt V c 1 ⟨0, hn⟩)
  | n + 1, hn =>
    if (n + 1) % 11 = 0 then accFirst (blockAt V c 0 ⟨n + 1, hn⟩) (blockAt V c 1 ⟨n + 1, hn⟩)
    else accStep (blockAt V c 0 ⟨n + 1, hn⟩) (blockAt V c 1 ⟨n + 1, hn⟩) (accAt c n (Nat.lt_of_succ_lt hn))

theorem accAt_first (c : Dev nD) (t : Fin cfg1.N) (h0 : t.val % 11 = 0) :
    accAt V c t.val t.isLt = accFirst (blockAt V c 0 t) (blockAt V c 1 t) := by
  obtain ⟨n, hn⟩ := t
  cases n with
  | zero => rfl
  | succ n => exact (if_pos h0)

theorem accAt_next (c : Dev nD) (t : Fin cfg1.N) (h0 : ¬t.val % 11 = 0) :
    accAt V c t.val t.isLt = accStep (blockAt V c 0 t) (blockAt V c 1 t)
      (accAt V c (t.val - 1) (Nat.lt_of_le_of_lt (Nat.sub_le _ _) t.isLt)) := by
  obtain ⟨n, hn⟩ := t
  cases n with
  | zero => exact absurd (Nat.zero_mod _) h0
  | succ n => exact (if_neg h0)

/-- The scratch accumulator: a whole scoped buffer of the kernel's own, passed beside the windows. -/
abbrev accM : Memref sig .tc .vmem S1024x2048 .f32 := Memref.whole cc1_scratch0

/-- The core's scoped buffers that are no staging buffer of this pallas_call — the first call's eight staging buffers,
    each whole at some contents — around what is said of the accumulator. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S)

theorem restWith_mono (c : Dev nD) {S S' : sProp 𝕄} (h : S ⊢ S') : restWith (F := F) c S ⊢ restWith c S' := by
  unfold restWith
  iintro ⟨H0, H1, H2, H3, H4, H5, H6, H7, HS⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply h; iexact HS

/-- The class invariant (the scoped rest and the generator register) with the accumulator as a memref owned at some
    contents. -/
theorem PhiA_eq (c : Dev nD) :
    (Pipeline.ΦA spec1 c : sProp 𝕄) = iprop(restWith c (iprop(∃ d, owns (c : Thread nD τ) accM fullShare d)) ∗ (∃ r, prngReg c r)) := by
  unfold Pipeline.ΦA restWith; rw [scopedRest1_eq]; simp only [accM, owns_whole]; try rfl

/-- The region's invariant before position `n`: before the first point the class's (the accumulator at anything);
    afterwards the accumulator at what the point before left, the other scoped buffers at anything, the generator
    register at some state. -/
def PhiAcc (c : Dev nD) : (n : ℕ) → n ≤ cfg1.N → sProp 𝕄
  | 0, _ => Pipeline.ΦA spec1 c
  | n + 1, hn => iprop(restWith c (owns (c : Thread nD τ) accM fullShare (accAt V c n hn)) ∗ (∃ r, prngReg c r))

theorem PhiAcc_zero (c : Dev nD) (n : ℕ) (h : n ≤ cfg1.N) (hz : n = 0) : PhiAcc V c n h = Pipeline.ΦA spec1 c := by
  subst hz; rfl
theorem PhiAcc_succ (c : Dev nD) (n : ℕ) (hn : n < cfg1.N) :
    PhiAcc V c (n + 1) hn = iprop(restWith c (owns (c : Thread nD τ) accM fullShare (accAt V c n hn)) ∗ (∃ r, prngReg c r)) := rfl
theorem PhiAcc_pos (c : Dev nD) (n : ℕ) (h : n ≤ cfg1.N) (hz : n ≠ 0) :
    PhiAcc V c n h = iprop(restWith c (owns (c : Thread nD τ) accM fullShare (accAt V c (n - 1) (by omega))) ∗ (∃ r, prngReg c r)) := by
  cases n with
  | zero => exact absurd rfl hz
  | succ n => rfl

/-- At any position the invariant gives the class's back: what the accumulator holds is forgotten. -/
theorem PhiAcc_forget (c : Dev nD) (n : ℕ) (h : n ≤ cfg1.N) : PhiAcc V c n h ⊢ Pipeline.ΦA spec1 c := by
  cases n with
  | zero => exact .rfl
  | succ n =>
    rw [PhiAcc_succ, PhiA_eq]
    iintro ⟨HR, Hg⟩
    have hw : owns (c : Thread nD τ) accM fullShare (accAt V c n h) ⊢ (iprop(∃ d, owns (c : Thread nD τ) accM fullShare d) : sProp 𝕄) := by
      iintro H; iexists _; iexact H
    isplitl [HR]
    · iapply (restWith_mono c hw)
      iexact HR
    iexact Hg

/-- The same with the scoped buffers listed. -/
theorem PhiAcc_open (c : Dev nD) (n : ℕ) (h : n ≤ cfg1.N) : PhiAcc V c n h ⊢
    (iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ ∃ d, owns (c : Thread nD τ) accM fullShare d) ∗ (∃ r, prngReg c r)) : sProp 𝕄) := by
  have := PhiAcc_forget V c n h
  rw [PhiA_eq] at this; unfold restWith at this; exact this

/-- The proof data on core `c`: the arrays as the region finds them; after the body each input's buffer at its block
    and the output's at the accumulator's contents (consulted only where the body stores it); the invariant
    `PhiAcc`; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => accAt V c t.val t.isLt
  Φ t := PhiAcc V c t.val (Nat.le_of_lt_succ t.isLt)
  q _ := fullShare
  owed _ := 0

theorem dat_A (c : Dev nD) (w : Fin cfg1.W) : (dat V c).A w = V c (Pipeline.arrRef spec1 w) := by
  dsimp only [dat]
theorem Phi_castSucc (c : Dev nD) (t : Fin cfg1.N) : (dat V c).Φ t.castSucc = PhiAcc V c t.val (Nat.le_of_lt t.isLt) := by
  dsimp only [dat]; simp only [Fin.coe_castSucc]
theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = accAt V c t.val t.isLt := by dsimp only [dat]

theorem before_0 (c : Dev nD) (t : Fin cfg1.N) (d) : (dat V c).before 0 t d = blockAt V c 0 t :=
  ((dat V c).before_in_eq_fetched 0 rfl (by decide +kernel) (fun _ _ _ => rfl)
    (fun t => by rw [after_0]; unfold Dat.blockOf blockAt; rw [dat_A]; try rfl) t d).trans
    (by unfold Dat.fetched Dat.blockOf blockAt; rw [dat_A]; try rfl)
theorem before_1 (c : Dev nD) (t : Fin cfg1.N) (d) : (dat V c).before 1 t d = blockAt V c 1 t :=
  ((dat V c).before_in_eq_fetched 1 rfl (by decide +kernel) (fun _ _ _ => rfl)
    (fun t => by rw [after_1]; unfold Dat.blockOf blockAt; rw [dat_A]; try rfl) t d).trans
    (by unfold Dat.fetched Dat.blockOf blockAt; rw [dat_A]; try rfl)

/-- Where the windows are idle: the inputs never; the output wherever the accumulator is not copied out, and there
    the pipeline does not write it back. -/
theorem live_0 : ∀ t : Fin cfg1.N, cfg1.idle 0 (grid1.coords t) = false := by decide +kernel
theorem live_1 : ∀ t : Fin cfg1.N, cfg1.idle 1 (grid1.coords t) = false := by decide +kernel
theorem idle_2 : ∀ t : Fin cfg1.N, ¬isLast (grid1.coords t) → cfg1.idle 2 (grid1.coords t) = true := by decide +kernel
theorem noFlush_2 : ∀ t : Fin cfg1.N, ¬isLast (grid1.coords t) → (cfg1.win 2).flush t = false := by decide +kernel
theorem live_2 : ∀ t : Fin cfg1.N, isLast (grid1.coords t) → cfg1.idle 2 (grid1.coords t) = false := by decide +kernel

set_option maxHeartbeats 4000000 in
/-- The body at any point: the inputs' memrefs hold their blocks; the closed forms say which case the point is in; the
    invariant hands the body the accumulator at what the point before left (at anything where it is reset) and takes
    it back at this point's contents; the core owes nothing throughout. -/
theorem sound_body (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d)))
    ⊢ wp frame (wpE (defs₀ (F := F)) Variants.none c none) Set.univ (bodyAt1 t) (fun _ =>
      iprop((dat V c).Φ t.succ ∗ (dat V c).owesAt () t.succ
        ∗ (dat V c).leavesExact 0 t ∗ (dat V c).leavesExact 1 t ∗ (dat V c).leavesExact 2 t)) := by
  unfold bodyAt1
  simp only [before_0, before_1]
  rw [show (dat V c).owesAt () t.succ = (dat V c).owesAt () t.castSucc from rfl]
  rw [show (dat V c).Φ t.succ = PhiAcc V c (t.val + 1) t.isLt from rfl, PhiAcc_succ]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  have hN : t.val < 44 := lt_of_lt_of_eq t.isLt (show cfg1.N = 44 from N_1)
  by_cases h0 : t.val % 11 = 0
  · have h1 : ¬t.val % 11 = 10 := by omega
    have hl : ¬isLast (grid1.coords t) := fun h => h1 ((isLast_iff t).mp h)
    rw [Dat.leavesExact_idle (dat V c) 2 t (idle_2 t hl) (noFlush_2 t hl)]
    rw [accAt_first V c t h0]
    rw [Phi_castSucc V c t]
    unfold restWith
    iintro ⟨HP, Ho, ⟨%d0, H0⟩, ⟨%d1, H1⟩, ⟨%d2, H2⟩⟩
    ihave HQ := (PhiAcc_open V c _ _) $$ HP
    icases HQ with ⟨⟨R0, R1, R2, R3, R4, R5, R6, R7, HS⟩, Hg⟩
    iapply (run_first c Set.univ (grid1.coords t) ((isFirst_iff t).mpr h0) hl _ _ _ _ _ _ _ _ (blockAt V c 0 t) (blockAt V c 1 t) _ _)
    isplitl [H0]; · iexact H0
    isplitl [H1]; · iexact H1
    isplitl [H2]; · iexact H2
    isplitl [HS]; · iexact HS
    iintro ⟨H0, H1, H2, HS⟩
    isplitl [R0 R1 R2 R3 R4 R5 R6 R7 HS Hg]
    · isplitr [Hg]
      · isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        iexact HS
      iexact Hg
    isplitl [Ho]; · iexact Ho
    isplitl [H0]; · iexact H0
    isplitl [H1]; · iexact H1
    iexists _; iexact H2
  · have hz : t.val ≠ 0 := fun e => h0 (by rw [e])
    have hf : ¬isFirst (grid1.coords t) := fun h => h0 ((isFirst_iff t).mp h)
    rw [accAt_next V c t h0]
    rw [Phi_castSucc V c t, PhiAcc_pos V c _ _ hz]
    unfold restWith
    by_cases h1 : t.val % 11 = 10
    · have hl : isLast (grid1.coords t) := (isLast_iff t).mpr h1
      rw [show (dat V c).leavesExact 2 t = owns (c : Thread nD τ) (st1_2 t) fullShare ((dat V c).after 2 t) from by
        unfold Dat.leavesExact; rw [live_2 t hl], after_2, accAt_next V c t h0]
      iintro ⟨⟨⟨R0, R1, R2, R3, R4, R5, R6, R7, HS⟩, Hg⟩, Ho, ⟨%d0, H0⟩, ⟨%d1, H1⟩, ⟨%d2, H2⟩⟩
      iapply (run_last c Set.univ (grid1.coords t) hf hl _ _ _ _ _ _ _ _ (blockAt V c 0 t) (blockAt V c 1 t) _ _)
      isplitl [H0]; · iexact H0
      isplitl [H1]; · iexact H1
      isplitl [H2]; · iexists _; iexact H2
      isplitl [HS]; · iexact HS
      iintro ⟨H0, H1, H2, HS⟩
      isplitl [R0 R1 R2 R3 R4 R5 R6 R7 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexact H2
    · have hl : ¬isLast (grid1.coords t) := fun h => h1 ((isLast_iff t).mp h)
      rw [Dat.leavesExact_idle (dat V c) 2 t (idle_2 t hl) (noFlush_2 t hl)]
      iintro ⟨⟨⟨R0, R1, R2, R3, R4, R5, R6, R7, HS⟩, Hg⟩, Ho, ⟨%d0, H0⟩, ⟨%d1, H1⟩, ⟨%d2, H2⟩⟩
      iapply (run_mid c Set.univ (grid1.coords t) hf hl _ _ _ _ _ _ _ _ (blockAt V c 0 t) (blockAt V c 1 t) _ _ _)
      isplitl [H0]; · iexact H0
      isplitl [H1]; · iexact H1
      isplitl [H2]; · iexact H2
      isplitl [HS]; · iexact HS
      iintro ⟨H0, H1, H2, HS⟩
      isplitl [R0 R1 R2 R3 R4 R5 R6 R7 HS Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          iexact HS
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point, -/
theorem hin (c : Dev nD) : Pipeline.ΦA spec1 c ⊢ (dat V c).Φ 0 := by
  rw [show (dat V c).Φ 0 = PhiAcc V c 0 (Nat.zero_le _) from rfl, PhiAcc_zero V c 0 _ rfl]
  try exact Idealize.SL.BI.Entails.refl _
/-- and after the last point the invariant gives it back. -/
theorem hout (c : Dev nD) : (dat V c).Φ (Fin.last cfg1.N) ⊢ Pipeline.ΦA spec1 c :=
  by
  rw [show (dat V c).Φ (Fin.last cfg1.N) = PhiAcc V c (Fin.last cfg1.N).val (Nat.le_of_lt_succ (Fin.last cfg1.N).isLt) from rfl]
  exact PhiAcc_forget V c _ _

end Cert.Kernel.Down

end
-- ==== Proof.TwoCallsBits.lean ====
/-
  The whole run of the program: @main is a stretch of host operations (the three weight matrices gathered from their
  codebooks, scaled and converted; the activations converted), then the gate/up pallas_call, then the down
  pallas_call. Composed with the pipeline library's launch theorem for a program of several kernel regions: between
  two items each core holds every unscoped buffer whole at a valuation named here — the launch contents, then the
  host operations applied, then the first call's arrays at what its pipeline leaves, then the second call's —, the
  generator register and the core owing nothing riding along. The conclusion reads EVERY unscoped buffer of the final
  memory at the last valuation, from which the frame (no item writes an argument) and the result array are read off.
-/
import proofs.«175893_j678604833231_2_alg».proof.Proof.GateUpBits
import proofs.«175893_j678604833231_2_alg».proof.Proof.DownBits
import proofs.«175893_j678604833231_2_alg».proof.Proof.Gen.Kernel.Regions

set_option maxRecDepth 16384

noncomputable section

namespace Cert.Kernel.TwoCalls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch; -/
abbrev atLaunch : Dev nD → Valuation τ sig (Elt F) := fun c b => m (c, b)
/-- after the host operations (the gate/up call's entry); -/
abbrev atHost : Dev nD → Valuation τ sig (Elt F) := fun c => StableHlo.after hostOps0 (atLaunch m c)
abbrev atHostR : (c : Dev nD) → (b : Ref sig .tc) → Buf (Elt F) ((c : Thread nD τ).loc b) := fun c b => atHost m c b
/-- after the gate/up call: its arrays at what its pipeline leaves, every other buffer as entered; -/
def atMid (c : Dev nD) : Valuation τ sig (Elt F) :=
  Pipeline.withArrays spec0 c (atHost m c) fun w => (GateUp.dat (atHostR m) c).arrAt w cfg0.N
abbrev atMidR : (c : Dev nD) → (b : Ref sig .tc) → Buf (Elt F) ((c : Thread nD τ).loc b) := fun c b => atMid m c b
/-- after the down call. -/
def atEnd (c : Dev nD) : Valuation τ sig (Elt F) :=
  Pipeline.withArrays spec1 c (atMid m c) fun w => (Down.dat (atMidR m) c).arrAt w cfg1.N
abbrev atEndR : (c : Dev nD) → (b : Ref sig .tc) → Buf (Elt F) ((c : Thread nD τ).loc b) := fun c b => atEnd m c b

theorem atMid_arr (c : Dev nD) (w : Fin cfg0.W) :
    atMid m c (Proc.devRef .tc (Pipeline.arrRef spec0 w)) = (GateUp.dat (atHostR m) c).arrAt w cfg0.N := by
  unfold atMid; exact Pipeline.withArrays_arr spec0 launch0.win.arr_inj c _ _ w
theorem atMid_of_ne (c : Dev nD) (b : Ref sig .tc) (hb : ∀ w, Pipeline.arrRef spec0 w ≠ b) :
    atMid m c (Proc.devRef .tc b) = atHost m c (Proc.devRef .tc b) := by
  unfold atMid; exact Pipeline.withArrays_of_ne spec0 c _ _ b hb
theorem atEnd_arr (c : Dev nD) (w : Fin cfg1.W) :
    atEnd m c (Proc.devRef .tc (Pipeline.arrRef spec1 w)) = (Down.dat (atMidR m) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m c (Proc.devRef .tc b) = atMid m c (Proc.devRef .tc b) := by
  unfold atEnd; exact Pipeline.withArrays_of_ne spec1 c _ _ b hb

theorem mid_arr (c : Dev nD) (w : Fin cfg0.W) : (GateUp.dat (atHostR m) c).arrAt w cfg0.N = atMidR m c (Pipeline.arrRef spec0 w) :=
  (atMid_arr m c w).symm
theorem mid_rest (c : Dev nD) : ∀ b, b ∉ Finset.univ.image (Pipeline.arrRef spec0) → atMidR m c b = atHostR m c b :=
  fun b hb => atMid_of_ne m c b fun w e => hb (Finset.mem_image.mpr ⟨w, Finset.mem_univ _, e⟩)
theorem end_arr (c : Dev nD) (w : Fin cfg1.W) : (Down.dat (atMidR m) c).arrAt w cfg1.N = atEndR m c (Pipeline.arrRef spec1 w) :=
  (atEnd_arr m c w).symm
theorem end_rest (c : Dev nD) : ∀ b, b ∉ Finset.univ.image (Pipeline.arrRef spec1) → atEndR m c b = atMidR m c b :=
  fun b hb => atEnd_of_ne m c b fun w e => hb (Finset.mem_image.mpr ⟨w, Finset.mem_univ _, e⟩)

/-- An argument reaches the end as launched: no host operation writes it and it is no array of either call. -/
theorem atEnd_arg (c : Dev nD) (r : Ref sig .tc) (h0 : ∀ w, Pipeline.arrRef spec0 w ≠ r) (h1 : ∀ w, Pipeline.arrRef spec1 w ≠ r)
    (hh : r ∉ hostOps0_W) : atEnd m c (Proc.devRef .tc r) = m ((c : Thread nD τ).loc r) :=
  (atEnd_of_ne m c r h1).trans ((atMid_of_ne m c r h0).trans (StableHlo.after_of_writes_sub hostOps0 _ hostOps0_writes hh))

/-! ## The proof data family and the thread state -/

def pdats : (p : Fin 2) → (c : Dev nD) → Dat τ (Elt F) Unit ℕ (UR sig nD τ) ℕ (Pipeline.pin (pcfgs (F := F)) adm p) c
  | ⟨0, _⟩ => fun c => GateUp.dat (atHostR m) c
  | ⟨1, _⟩ => fun c => Down.dat (atMidR m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (atLaunch m) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (atEnd m c) ∗ ∃ r, prngReg c r)

/-! ## The two calls as segments -/

set_option backward.isDefEq.respectTransparency.types false in
/-- The gate/up call: entered from every unscoped buffer at `atHost`, left at `atMid`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (GateUp.body_obligation (atHostR m) c).loose
  hwaits := Pipeline.hwaits_of_owed_zero _ _ _ _ L lv 0 fun _ _ => rfl
  pre c := iprop(StableHlo.held (c : Thread nD τ) (Pipeline.ucRefs τ sig) (atHost m c) ∗ R c)
  post c := iprop(StableHlo.held (c : Thread nD τ) (Pipeline.ucRefs τ sig) (atMid m c) ∗ R c)
  X c := iprop(∃ r, prngReg c r)
  Y c := iprop(∃ r, prngReg c r)
  Z c := Pipeline.unscopedRest (Ix := Unit) (Name := ℕ) (U := UR sig nD τ) (Lvl := ℕ) spec0 c (atHostR m c)
  hentry c := by
    rw [Pipeline.ownSems0_none]
    have hsplit := Pipeline.arrays_of_unscopedBufs (p := 0) (pcfgs (F := F)) adm (pdats m) launch0.win launch0.arr_whole c
      ((pdats m 0 c).share_full fun _ => rfl) (atHostR m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atHostR m c) (atMidR m c) ((pdats m 0 c).arrAt · cfg0.N) (mid_arr m c) (mid_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down call: entered from every unscoped buffer at `atMid`, left at `atEnd`; its invariant takes the scoped
    rest and the generator register in and gives them back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Down.body_obligation (atMidR m) c).loose
  hwaits := Pipeline.hwaits_of_owed_zero _ _ _ _ L lv 1 fun _ _ => rfl
  pre c := iprop(StableHlo.held (c : Thread nD τ) (Pipeline.ucRefs τ sig) (atMid m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (atMidR m c)
  hentry c := by
    rw [Pipeline.ownSems0_none]
    have hsplit := Pipeline.arrays_of_unscopedBufs (p := 1) (pcfgs (F := F)) adm (pdats m) launch1.win launch1.arr_whole c
      ((pdats m 1 c).share_full fun _ => rfl) (atMidR m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Down.hin (atMidR m) c)
    unfold Pipeline.ΦA
    iintro ⟨Hp, -, Hr⟩
    isplitl [Hr]; · iexact Hr
    iexact Hp
  hout c := by
    refine BIBase.Entails.trans (Down.hout (atMidR m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atMidR m c) (atEndR m c) ((pdats m 1 c).arrAt · cfg1.N) (end_arr m c) (end_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg m), .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final state has every unscoped buffer at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h => h)

/-- A final memory read at the last valuation has every argument array as launched. -/
theorem kept (r : PUnit × MemSt nD τ sig (Elt F)) (h : ∀ c : Dev nD, ∀ b ∈ Pipeline.ucRefs τ sig, r.2.mem (((c : Thread nD τ)).1, b) = atEnd m c b)
    (c : Dev nD) :
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9) :=
  ⟨(h c _ (mem_uc main_arg0 (by decide))).trans (atEnd_arg m c main_arg0 (by decide) (by decide) (by decide)),
    (h c _ (mem_uc main_arg1 (by decide))).trans (atEnd_arg m c main_arg1 (by decide) (by decide) (by decide)),
    (h c _ (mem_uc main_arg2 (by decide))).trans (atEnd_arg m c main_arg2 (by decide) (by decide) (by decide)),
    (h c _ (mem_uc main_arg3 (by decide))).trans (atEnd_arg m c main_arg3 (by decide) (by decide) (by decide)),
    (h c _ (mem_uc main_arg4 (by decide))).trans (atEnd_arg m c main_arg4 (by decide) (by decide) (by decide)),
    (h c _ (mem_uc main_arg5 (by decide))).trans (atEnd_arg m c main_arg5 (by decide) (by decide) (by decide)),
    (h c _ (mem_uc main_arg6 (by decide))).trans (atEnd_arg m c main_arg6 (by decide) (by decide) (by decide)),
    (h c _ (mem_uc main_arg7 (by decide))).trans (atEnd_arg m c main_arg7 (by decide) (by decide) (by decide)),
    (h c _ (mem_uc main_arg8 (by decide))).trans (atEnd_arg m c main_arg8 (by decide) (by decide) (by decide)),
    (h c _ (mem_uc main_arg9 (by decide))).trans (atEnd_arg m c main_arg9 (by decide) (by decide) (by decide))⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => kept m r h c) (run_main m ρ)

/-- The result array after the run is what the down call's pipeline leaves in its output's array. -/
theorem result (r : PUnit × MemSt nD τ sig (Elt F)) (h : ∀ c : Dev nD, ∀ b ∈ Pipeline.ucRefs τ sig, r.2.mem (((c : Thread nD τ)).1, b) = atEnd m c b)
    (c : Dev nD) : r.2.mem ((c.tc : Thread nD τ).loc main_v38) = (Down.dat (atMidR m) c).arrAt 2 cfg1.N :=
  (h c _ (mem_uc main_v38 (by decide))).trans (atEnd_arr m c 2)

end Cert.Kernel.TwoCalls

end
-- ==== Proof.LibRowsDot.lean ====
/-
  Cert.Lib.RowsDot: a feed-forward block's mathematics over matrices of extended reals indexed by literal shapes, and
  a contraction read tile by tile.

  `rowsDot L R` is L · Rᵀ: entry (p, c) is the sum over k of L (p, k) · R (c, k) — rows against rows, the layout of a
  weight matrix stored [out, in]. `gated X Wg Wu` is silu (X · Wgᵀ) ⊙ (X · Wuᵀ) with silu g = g · logistic g, and the
  expert's output is `rowsDot (gated X Wg Wu) Wd`. The one law the two programs' arrangements differ by is that a sum
  over K·B places is the sum over K tiles of the sums over each tile's B places (`rowsDot_tiles`): commutativity and
  associativity of addition only, so it holds on the extended reals with no finiteness assumed.
-/
import Idealize.ShloMosaic.PureOps.Ideal
import Idealize.ShloMosaic.Lib.ValueIdx
import Mathlib.Algebra.BigOperators.Fin
import Mathlib.Algebra.BigOperators.Intervals

noncomputable section

namespace Cert.Lib.RowsDot

open Idealize.ShloMosaic Idealize.ShloMosaic.ValueIdx

/-- A matrix of extended reals over a literal shape. -/
abbrev Mat (a b : Nat) : Type := (⟨2, ![a, b]⟩ : Shape).Idx → EReal

/-- L · Rᵀ, rows against rows. -/
def rowsDot {M K N : Nat} (L : Mat M K) (R : Mat N K) : Mat M N :=
  fun j => ∑ k : Fin K, L (ix2 (j 0) k) * R (ix2 (j 1) k)

theorem rowsDot_apply {M K N : Nat} (L : Mat M K) (R : Mat N K) (p : Fin M) (c : Fin N) :
    rowsDot L R (ix2 p c) = ∑ k : Fin K, L (ix2 p k) * R (ix2 c k) := rfl

/-- silu g = g · logistic g. -/
def silu (g : EReal) : EReal := g * Ideal.logistic g

/-- silu (X · Wgᵀ) ⊙ (X · Wuᵀ). -/
def gated {T H I : Nat} (X : Mat T H) (Wg Wu : Mat I H) : Mat T I :=
  fun j => silu (rowsDot X Wg j) * rowsDot X Wu j

/-- A matrix read at natural-number coordinates, zero outside its extents. -/
def ext {a b : Nat} (A : Mat a b) (i j : ℕ) : EReal :=
  if h : i < a ∧ j < b then A (ix2 ⟨i, h.1⟩ ⟨j, h.2⟩) else 0

theorem ext_of_lt {a b : Nat} (A : Mat a b) (i : Fin a) (j : Fin b) : ext A i.val j.val = A (ix2 i j) :=
  dif_pos ⟨i.isLt, j.isLt⟩

theorem ext_eq {a b : Nat} (A : Mat a b) (i j : ℕ) (hi : i < a) (hj : j < b) : ext A i j = A (ix2 ⟨i, hi⟩ ⟨j, hj⟩) :=
  dif_pos ⟨hi, hj⟩

/-- Tile `s` of B places of the contraction of row `row` of H against row `col` of W. -/
def tileTerm (B : ℕ) {T D I : Nat} (H : Mat T I) (W : Mat D I) (row col s : ℕ) : EReal :=
  ∑ r : Fin B, ext H row (s * B + r.val) * ext W col (s * B + r.val)

/-- A sum over K·B consecutive places is the sum over K tiles of the sums over each tile's B places. -/
theorem range_tiles {α : Type} [AddCommMonoid α] (g : ℕ → α) (K B : ℕ) :
    ∑ n ∈ Finset.range (K * B), g n = ∑ s ∈ Finset.range K, ∑ r ∈ Finset.range B, g (s * B + r) := by
  induction K with
  | zero => simp
  | succ K ih => rw [Nat.succ_mul, Finset.sum_range_add, Finset.sum_range_succ, ih]

/-- The contraction over an axis of K·B places, tile by tile. -/
theorem rowsDot_tiles (K B I : ℕ) (hI : I = K * B) {T D : Nat} (H : Mat T I) (W : Mat D I) (p : Fin T) (q : Fin D) :
    rowsDot H W (ix2 p q) = ∑ s ∈ Finset.range K, tileTerm B H W p.val q.val s := by
  subst hI
  rw [rowsDot_apply]
  have e : ∀ k : Fin (K * B), H (ix2 p k) * W (ix2 q k) = (fun n => ext H p.val n * ext W q.val n) k.val :=
    fun k => by show _ = ext H p.val k.val * ext W q.val k.val; rw [ext_of_lt, ext_of_lt]
  rw [Finset.sum_congr rfl (fun k _ => e k), Fin.sum_univ_eq_sum_range (fun n => ext H p.val n * ext W q.val n) (K * B),
    range_tiles]
  refine Finset.sum_congr rfl fun s _ => ?_
  unfold tileTerm
  exact (Fin.sum_univ_eq_sum_range (fun r => ext H p.val (s * B + r) * ext W q.val (s * B + r)) B).symm

end Cert.Lib.RowsDot

end
-- ==== Proof.LibDotRowsRows.lean ====
/-
  Cert.Lib.DotRowsRows: a matrix product with the right operand in the [out, in] layout (y = x @ W.T), as a plain sum.

  For a contraction record over [M, K] x [N, K] -> [M, N] with ONE contracted axis, the second axis of each operand,
  the sum over the record's contraction indices of left (lhsIdx j q) * right (rhsIdx j q) at the output index
  j = (p, c) is the sum over k : Fin K of left (p, k) * right (c, k): row p of the left operand against row c of the
  right one. The record enters only through six facts — its contraction shape has rank one and extent K, and the four
  coordinates of the two operand indices — so one lemma serves a kernel's tpu.matmul with dimension numbers
  [1], [1], [0], [0] and a host dot_general contracting [1] x [1]. The values may be of any type with a product and a
  commutative sum; no law of arithmetic beyond re-indexing the sum is used.
-/
import Idealize.ShloMosaic.Lib.ValueIdx

namespace Cert.Lib.DotRowsRows

open Idealize.ShloMosaic Idealize.ShloMosaic.ValueIdx

/-- Row `p` of the left operand against row `c` of the right operand: the contraction over the record's index type
    re-indexed by the one coordinate of that index. -/
theorem sum_rows_rows {α : Type} [AddCommMonoid α] [Mul α] {M K N : Nat}
    (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q ⟨0, Nat.zero_lt_two⟩).val = (j 0).val)
    (hl1 : ∀ (j : (⟨2, ![M, N]⟩ : Shape).Idx) (q : D.contr.Idx), (D.lhsIdx j q ⟨1, Nat.one_lt_two⟩).val = (q ⟨0, by omega⟩).val)
    (hr0 : ∀ (j : (⟨2, ![M, N]⟩ : Shape).Idx) (q : D.contr.Idx), (D.rhsIdx j q ⟨0, Nat.zero_lt_two⟩).val = (j 1).val)
    (hr1 : ∀ (j : (⟨2, ![M, N]⟩ : Shape).Idx) (q : D.contr.Idx), (D.rhsIdx j q ⟨1, Nat.one_lt_two⟩).val = (q ⟨0, by omega⟩).val)
    (L : (⟨2, ![M, K]⟩ : Shape).Idx → α) (R : (⟨2, ![N, K]⟩ : Shape).Idx → α) (p : Fin M) (c : Fin N) :
    ∑ q : D.contr.Idx, L (D.lhsIdx (ix2 p c) q) * R (D.rhsIdx (ix2 p c) q) = ∑ k : Fin K, L (ix2 p k) * R (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.DotRowsRows
-- ==== Proof.GateUpValue.lean ====
/-
  What the gate/up call leaves in its output array at the exact values: silu (X · Wgᵀ) ⊙ (X · Wuᵀ) of the three
  arrays it reads, whole. First the body's payload on a point's blocks is that function of the blocks (its two matrix
  products contract the second axis of both operands: rows against rows; a change of float format is the identity);
  then the block a point writes back is the block of the whole-array function, because the activations' block moves
  with the output block's row index and each weight block with its column index while the contracted axis is never
  cut; and the output's blocks tile its array.
-/
import proofs.«175893_j678604833231_2_alg».proof.Proof.GateUp
import proofs.«175893_j678604833231_2_alg».proof.Proof.LibRowsDot
import proofs.«175893_j678604833231_2_alg».proof.Proof.LibDotRowsRows
import Idealize.ShloMosaic.Lib.Pipeline.Value
import Idealize.ShloMosaic.Lib.ValueIdx
import Idealize.ShloMosaic.PureOps.Ideal.Laws

set_option maxRecDepth 16384

noncomputable section

namespace Cert.KernelIdeal.GateUpValue

open Cert.KernelIdeal Cert.KernelIdeal.Gen Cert.KernelIdeal.GateUp
open Idealize.ShloMosaic Idealize.ShloMosaic.TcCoe Idealize.ShloMosaic.ValueIdx
open Idealize.SL Idealize.SL.Sem
open Idealize.ShloMosaic.Pipeline (Dat)

theorem hz2 : (![0, 0] : Fin 2 → Nat) = fun _ => 0 := funext fun a => by fin_cases a <;> rfl

abbrev D0 : DotDims S1024x2048 S512x2048 S1024x512 := dot_S1024x2048_S512x2048_S1024x512_1_1_0_0_n_n

theorem lhs_0 (j : S1024x512.Idx) (q : D0.contr.Idx) : (D0.lhsIdx j q 0).val = (j 0).val := by
  unfold DotDims.lhsIdx
  rw [dif_neg (show ¬(0 : Fin S1024x2048.rank) ∈ D0.lhsBatch by decide), dif_pos (show (0 : Fin S1024x2048.rank) ∈ D0.lhsNonContracting by decide)]
  rfl
theorem lhs_1 (j : S1024x512.Idx) (q : D0.contr.Idx) : (D0.lhsIdx j q 1).val = (q ⟨0, by decide⟩).val :=
  D0.lhsIdx_val_of_single rfl j q
theorem rhs_0 (j : S1024x512.Idx) (q : D0.contr.Idx) : (D0.rhsIdx j q 0).val = (j 1).val := by
  unfold DotDims.rhsIdx
  rw [dif_neg (show ¬(0 : Fin S512x2048.rank) ∈ D0.rhsBatch by decide), dif_pos (show (0 : Fin S512x2048.rank) ∈ D0.rhsNonContracting by decide)]
  rfl
theorem rhs_1 (j : S1024x512.Idx) (q : D0.contr.Idx) : (D0.rhsIdx j q 1).val = (q ⟨0, by decide⟩).val :=
  D0.rhsIdx_val_of_single rfl j q

/-- A body's matrix product into the zero accumulator, read at an entry: row p of the left block against row q of the
    right block. -/
theorem dot_apply (x : FVec Ideal S1024x2048 .bf16) (w : FVec Ideal S512x2048 .bf16) (p : Fin 1024) (q : Fin 512) :
    matmul (F := Ideal) D0 none x w (constant S1024x512 .f32 0x00000000#32) (ix2 p q) = Lib.RowsDot.rowsDot x w (ix2 p q) :=
  (Ideal.matmul_constant_zero_apply D0 none x w (ix2 p q)).trans
    (Cert.Lib.DotRowsRows.sum_rows_rows D0 rfl rfl (fun j q => lhs_0 j q) (fun j q => lhs_1 j q) (fun j q => rhs_0 j q) (fun j q => rhs_1 j q) x w p q)

/-- The body's payload on three blocks is silu (x · wgᵀ) ⊙ (x · wuᵀ) of the blocks. -/
theorem hidden_eq (x : Vec Ideal S1024x2048 .bf16) (wg wu : Vec Ideal S512x2048 .bf16) :
    GateUp.hidden x wg wu = Lib.RowsDot.gated x wg wu := by
  unfold GateUp.hidden
  rw [View.canon_unit_zero hz2]
  simp only [View.ld_unit_zero (S := S1024x2048) hz2, View.ld_unit_zero (S := S512x2048) hz2]
  funext j
  obtain ⟨p, q, rfl⟩ : ∃ (p : Fin 1024) (q : Fin 512), j = ix2 p q := ⟨j 0, j 1, eq_ix2 j⟩
  unfold k0_pay1
  simp only [shapeCast_self]
  show (matmul (F := Ideal) D0 none x wg (constant S1024x512 .f32 0x00000000#32) (ix2 p q)
      * Ideal.logistic (matmul (F := Ideal) D0 none x wg (constant S1024x512 .f32 0x00000000#32) (ix2 p q)))
      * matmul (F := Ideal) D0 none x wu (constant S1024x512 .f32 0x00000000#32) (ix2 p q) = _
  rw [dot_apply, dot_apply]
  rfl

variable (V : (c : Dev nD) → (b : Ref sig .tc) → Buf (Elt Ideal) ((c : Thread nD τ).loc b))

/-- The printed index maps, decided over the grid: the activations' block follows the output block's row index, each
    weight block its column index, and the contracted axis is one block. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0 :=
  (by decide +kernel : ∀ t : Fin grid0.N, _)

/-- Every block of the output array is some point's. -/
theorem idx_onto : ∀ (q0 : Fin 4) (q1 : Fin 11), ∃ t : Fin cfg0.N, win0_3.index t = ![q0.val, q1.val] :=
  (by decide +kernel : ∀ (q0 : Fin 4) (q1 : Fin 11), ∃ t : Fin grid0.N, win0_3.index t = ![q0.val, q1.val])

/-- The whole-array function the output array ends holding. -/
abbrev actArr (c : Dev nD) : Lib.RowsDot.Mat 4096 2048 := V c main_v36
abbrev gateArr (c : Dev nD) : Lib.RowsDot.Mat 5632 2048 := V c main_v11
abbrev upArr (c : Dev nD) : Lib.RowsDot.Mat 5632 2048 := V c main_v23
abbrev hiddenArr (c : Dev nD) : Lib.RowsDot.Mat 4096 5632 :=
  Lib.RowsDot.gated (actArr V c) (gateArr V c) (upArr V c)

/-- What point `t` writes back is block `t` of the whole-array function. -/
theorem flushed_eq (c : Dev nD) (t : Fin cfg0.N) :
    (dat V c).flushed 3 t = ((cfg0.win 3).blk t).view.read (Elt Ideal) (hiddenArr V c) := by
  show (cfg0.win 3).cut (grid0.coords t) ((dat V c).after 3 t) = _
  rw [after_3, hidden_eq]
  obtain ⟨e0, e1, e2, e3, e4, e5⟩ := idx_facts t
  funext j
  have hx : ∀ k : Fin 2048, ((cfg0.win 0).blk t).view.emb (ix2 (j 0) k) = ix2 ((((cfg0.win 3).blk t).view.emb j) 0) k := by
    intro k; funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 2048 + 1 * k.val = k.val; omega
  have hg : ∀ k : Fin 2048, ((cfg0.win 1).blk t).view.emb (ix2 (j 1) k) = ix2 ((((cfg0.win 3).blk t).view.emb j) 1) k := by
    intro k; funext a; apply Fin.ext
    match a with
    | ⟨0, _⟩ => show win0_1.index t (0 : Fin 2) * 512 + 1 * (j 1).val = win0_3.index t (1 : Fin 2) * 512 + 1 * (j 1).val; omega
    | ⟨1, _⟩ => show win0_1.index t (1 : Fin 2) * 2048 + 1 * k.val = k.val; omega
  have hu : ∀ k : Fin 2048, ((cfg0.win 2).blk t).view.emb (ix2 (j 1) k) = ix2 ((((cfg0.win 3).blk t).view.emb j) 1) k := by
    intro k; funext a; apply Fin.ext
    match a with
    | ⟨0, _⟩ => show win0_2.index t (0 : Fin 2) * 512 + 1 * (j 1).val = win0_3.index t (1 : Fin 2) * 512 + 1 * (j 1).val; omega
    | ⟨1, _⟩ => show win0_2.index t (1 : Fin 2) * 2048 + 1 * k.val = k.val; omega
  have s1 : (∑ k : Fin 2048, actArr V c (((cfg0.win 0).blk t).view.emb (ix2 (j 0) k)) * gateArr V c (((cfg0.win 1).blk t).view.emb (ix2 (j 1) k)))
      = ∑ k : Fin 2048, actArr V c (ix2 ((((cfg0.win 3).blk t).view.emb j) 0) k) * gateArr V c (ix2 ((((cfg0.win 3).blk t).view.emb j) 1) k) :=
    Finset.sum_congr rfl fun k _ => by rw [hx k, hg k]; rfl
  have s2 : (∑ k : Fin 2048, actArr V c (((cfg0.win 0).blk t).view.emb (ix2 (j 0) k)) * upArr V c (((cfg0.win 2).blk t).view.emb (ix2 (j 1) k)))
      = ∑ k : Fin 2048, actArr V c (ix2 ((((cfg0.win 3).blk t).view.emb j) 0) k) * upArr V c (ix2 ((((cfg0.win 3).blk t).view.emb j) 1) k) :=
    Finset.sum_congr rfl fun k _ => by rw [hx k, hu k]; rfl
  exact congrArg₂ (fun a b => Lib.RowsDot.silu a * b) s1 s2

/-- An index of the array is in point `t`'s block iff each coordinate is in the block's range on its axis. -/
theorem mem_blk (t : Fin cfg0.N) (i : S4096x5632.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v37).slice (win0_3.rect t)).set ↔ _
  rw [View.set_slice_whole, Rect.mem_set_unit]
  exact Iff.rfl

/-- The output's blocks tile its array. -/
theorem covered (i : S4096x5632.Idx) : ∃ t : Fin cfg0.N, (cfg0.win 3).flush t = true ∧ i ∈ ((cfg0.win 3).blk t).view.set := by
  have hi0 : (i 0).val < 4096 := (i 0).isLt
  have hi1 : (i 1).val < 5632 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- THE ARRAY after the call: silu (X · Wgᵀ) ⊙ (X · Wuᵀ), whole. -/
theorem final (c : Dev nD) : (dat V c).arrAt 3 cfg0.N = hiddenArr V c :=
  (dat V c).arrAt_eq_of_cover 3 (hiddenArr V c) (fun t _ => flushed_eq V c t) covered

end Cert.KernelIdeal.GateUpValue

end
-- ==== Proof.DownValue.lean ====
/-
  What the down call leaves in its output array at the exact values: H · Wdᵀ of the two arrays it reads, whole. The
  contracted axis of 5632 places is walked in 11 tiles of 512, the grid's inner axis. After the point with inner
  coordinate k the accumulator holds, at entry (p, q) of token tile i, the sum over the tiles 0..k of each tile's
  contribution to entry (1024·i + p, q) of the product (`acc_apply`, by induction on the point: a reset point starts
  from zero, every other point adds its tile to what the point before left). At k = 10 that is the whole contraction
  (a sum over 11·512 places is the sum of its 11 tiles' sums), and it is what the point copies to the output block; the
  output's blocks, one per token tile, tile its array.
-/
import proofs.«175893_j678604833231_2_alg».proof.Proof.Down
import proofs.«175893_j678604833231_2_alg».proof.Proof.LibRowsDot
import proofs.«175893_j678604833231_2_alg».proof.Proof.LibDotRowsRows
import Idealize.ShloMosaic.Lib.Pipeline.Value
import Idealize.ShloMosaic.Lib.ValueIdx
import Idealize.ShloMosaic.PureOps.Ideal.Laws

set_option maxRecDepth 16384

noncomputable section

namespace Cert.KernelIdeal.DownValue

open Cert.KernelIdeal Cert.KernelIdeal.Gen Cert.KernelIdeal.Down
open Idealize.ShloMosaic Idealize.ShloMosaic.TcCoe Idealize.ShloMosaic.ValueIdx
open Idealize.SL Idealize.SL.Sem
open Idealize.ShloMosaic.Pipeline (Dat)

abbrev D1 : DotDims S1024x512 S2048x512 S1024x2048 := dot_S1024x512_S2048x512_S1024x2048_1_1_0_0_n_n

theorem lhs_0 (j : S1024x2048.Idx) (q : D1.contr.Idx) : (D1.lhsIdx j q 0).val = (j 0).val := by
  unfold DotDims.lhsIdx
  rw [dif_neg (show ¬(0 : Fin S1024x512.rank) ∈ D1.lhsBatch by decide), dif_pos (show (0 : Fin S1024x512.rank) ∈ D1.lhsNonContracting by decide)]
  rfl
theorem lhs_1 (j : S1024x2048.Idx) (q : D1.contr.Idx) : (D1.lhsIdx j q 1).val = (q ⟨0, by decide⟩).val :=
  D1.lhsIdx_val_of_single rfl j q
theorem rhs_0 (j : S1024x2048.Idx) (q : D1.contr.Idx) : (D1.rhsIdx j q 0).val = (j 1).val := by
  unfold DotDims.rhsIdx
  rw [dif_neg (show ¬(0 : Fin S2048x512.rank) ∈ D1.rhsBatch by decide), dif_pos (show (0 : Fin S2048x512.rank) ∈ D1.rhsNonContracting by decide)]
  rfl
theorem rhs_1 (j : S1024x2048.Idx) (q : D1.contr.Idx) : (D1.rhsIdx j q 1).val = (q ⟨0, by decide⟩).val :=
  D1.rhsIdx_val_of_single rfl j q

/-- The body's matrix product into the zero accumulator, read at an entry: row p of the hidden block against row q of
    the weight block. -/
theorem dot_apply (h : FVec Ideal S1024x512 .bf16) (w : FVec Ideal S2048x512 .bf16) (p : Fin 1024) (q : Fin 2048) :
    matmul (F := Ideal) D1 none h w (constant S1024x2048 .f32 0x00000000#32) (ix2 p q) = Lib.RowsDot.rowsDot h w (ix2 p q) :=
  (Ideal.matmul_constant_zero_apply D1 none h w (ix2 p q)).trans
    (Cert.Lib.DotRowsRows.sum_rows_rows D1 rfl rfl (fun j q => lhs_0 j q) (fun j q => lhs_1 j q) (fun j q => rhs_0 j q) (fun j q => rhs_1 j q) h w p q)

/-- A point that adds: the accumulator's entry plus the tile's contraction. -/
theorem accStep_apply (h : Vec Ideal S1024x512 .bf16) (wd : Vec Ideal S2048x512 .bf16) (s : Vec Ideal S1024x2048 .f32)
    (p : Fin 1024) (q : Fin 2048) : accStep h wd s (ix2 p q) = s (ix2 p q) + Lib.RowsDot.rowsDot h wd (ix2 p q) := by
  unfold accStep
  simp only [View.ld_unit_zero (S := S1024x512) hz2, View.ld_unit_zero (S := S2048x512) hz2, View.ld_unit_zero (S := S1024x2048) hz2]
  unfold k1_pay2
  simp only [shapeCast_self]
  show s (ix2 p q) + matmul (F := Ideal) D1 none h wd (constant S1024x2048 .f32 0x00000000#32) (ix2 p q) = _
  rw [dot_apply]

/-- A point that resets first: the tile's contraction over zero. -/
theorem accFirst_apply (h : Vec Ideal S1024x512 .bf16) (wd : Vec Ideal S2048x512 .bf16)
    (p : Fin 1024) (q : Fin 2048) : accFirst h wd (ix2 p q) = Lib.RowsDot.rowsDot h wd (ix2 p q) := by
  unfold accFirst
  simp only [View.ld_unit_zero (S := S1024x512) hz2, View.ld_unit_zero (S := S2048x512) hz2]
  unfold k1_pay2 k1_pay1
  simp only [shapeCast_self]
  show Ideal.ofBits .f32 0x00000000#32 + matmul (F := Ideal) D1 none h wd (constant S1024x2048 .f32 0x00000000#32) (ix2 p q) = _
  rw [dot_apply, Ideal.ofBits_zero_f32, zero_add]

variable (V : (c : Dev nD) → (b : Ref sig .tc) → Buf (Elt Ideal) ((c : Thread nD τ).loc b))

abbrev hidArr (c : Dev nD) : Lib.RowsDot.Mat 4096 5632 := V c main_v37
abbrev downArr (c : Dev nD) : Lib.RowsDot.Mat 2048 5632 := V c main_v35
/-- The whole-array function the output array ends holding. -/
abbrev outArr (c : Dev nD) : Lib.RowsDot.Mat 4096 2048 := Lib.RowsDot.rowsDot (hidArr V c) (downArr V c)

/-- The printed index maps in closed form, decided over the grid. -/
theorem idx_facts : ∀ t : Fin cfg1.N, win1_0.index t (0 : Fin 2) = t.val / 11
    ∧ win1_0.index t (1 : Fin 2) = t.val % 11
    ∧ win1_1.index t (0 : Fin 2) = 0
    ∧ win1_1.index t (1 : Fin 2) = t.val % 11
    ∧ win1_2.index t (0 : Fin 2) = t.val / 11
    ∧ win1_2.index t (1 : Fin 2) = 0 :=
  (by decide +kernel : ∀ t : Fin grid1.N, _)

/-- Every token tile's output block is written back by the last point of that tile's sweep. -/
theorem idx_onto : ∀ q0 : Fin 4, ∃ t : Fin cfg1.N, (cfg1.win 2).flush t = true ∧ win1_2.index t = ![q0.val, 0] :=
  (by decide +kernel : ∀ q0 : Fin 4, ∃ t : Fin grid1.N, win1_2.flush t = true ∧ win1_2.index t = ![q0.val, 0])

/-- One point's contraction of its two blocks is one tile of the whole contraction. -/
theorem tile_apply (c : Dev nD) (t : Fin cfg1.N) (p : Fin 1024) (q : Fin 2048) :
    Lib.RowsDot.rowsDot (M := 1024) (K := 512) (N := 2048) (blockAt V c 0 t) (blockAt V c 1 t) (ix2 p q)
      = Lib.RowsDot.tileTerm 512 (hidArr V c) (downArr V c) (t.val / 11 * 1024 + p.val) q.val (t.val % 11) := by
  obtain ⟨e0, e1, e2, e3, e4, e5⟩ := idx_facts t
  have hN : t.val < 44 := lt_of_lt_of_eq t.isLt (show cfg1.N = 44 from N_1)
  rw [Lib.RowsDot.rowsDot_apply]
  unfold Lib.RowsDot.tileTerm
  refine Finset.sum_congr rfl fun r _ => ?_
  have hp : p.val < 1024 := p.isLt
  have hq : q.val < 2048 := q.isLt
  have hr : r.val < 512 := r.isLt
  rw [Lib.RowsDot.ext_eq _ _ _ (by omega) (by omega), Lib.RowsDot.ext_eq _ _ _ (by omega) (by omega)]
  have h0 : ((cfg1.win 0).blk t).view.emb (ix2 p r) = ix2 (⟨t.val / 11 * 1024 + p.val, by omega⟩ : Fin 4096) (⟨t.val % 11 * 512 + r.val, by omega⟩ : Fin 5632) := by
    funext a; apply Fin.ext
    match a with
    | ⟨0, _⟩ => show win1_0.index t (0 : Fin 2) * 1024 + 1 * p.val = t.val / 11 * 1024 + p.val; omega
    | ⟨1, _⟩ => show win1_0.index t (1 : Fin 2) * 512 + 1 * r.val = t.val % 11 * 512 + r.val; omega
  have h1 : ((cfg1.win 1).blk t).view.emb (ix2 q r) = ix2 (⟨q.val, by omega⟩ : Fin 2048) (⟨t.val % 11 * 512 + r.val, by omega⟩ : Fin 5632) := by
    funext a; apply Fin.ext
    match a with
    | ⟨0, _⟩ => show win1_1.index t (0 : Fin 2) * 2048 + 1 * q.val = q.val; omega
    | ⟨1, _⟩ => show win1_1.index t (1 : Fin 2) * 512 + 1 * r.val = t.val % 11 * 512 + r.val; omega
  show hidArr V c (((cfg1.win 0).blk t).view.emb (ix2 p r)) * downArr V c (((cfg1.win 1).blk t).view.emb (ix2 q r)) = _
  rw [h0, h1]

/-- THE ACCUMULATOR after position `n`: the tiles 0..(n mod 11) of the contraction, for the token tile n / 11. -/
theorem acc_apply (c : Dev nD) : ∀ (n : ℕ) (hn : n < cfg1.N) (p : Fin 1024) (q : Fin 2048),
    accAt V c n hn (ix2 p q)
      = ∑ s ∈ Finset.range (n % 11 + 1), Lib.RowsDot.tileTerm 512 (hidArr V c) (downArr V c) (n / 11 * 1024 + p.val) q.val s := by
  intro n
  induction n with
  | zero =>
    intro hn p q
    rw [accAt_first V c ⟨0, hn⟩ (Nat.zero_mod _), accFirst_apply, tile_apply]
    simp
  | succ n ih =>
    intro hn p q
    by_cases h0 : (n + 1) % 11 = 0
    · rw [accAt_first V c ⟨n + 1, hn⟩ h0, accFirst_apply, tile_apply]
      show _ = ∑ s ∈ Finset.range ((n + 1) % 11 + 1), _
      rw [h0]; simp
    · rw [accAt_next V c ⟨n + 1, hn⟩ h0, accStep_apply, tile_apply]
      show accAt V c (n + 1 - 1) _ (ix2 p q) + _ = _
      have e : accAt V c (n + 1 - 1) (Nat.lt_of_le_of_lt (Nat.sub_le _ _) hn) = accAt V c n (Nat.lt_of_succ_lt hn) := by
        congr 1
      rw [e, ih (Nat.lt_of_succ_lt hn) p q]
      have d : (n + 1) / 11 = n / 11 := by omega
      have r : (n + 1) % 11 = n % 11 + 1 := by omega
      show _ + Lib.RowsDot.tileTerm 512 _ _ ((n + 1) / 11 * 1024 + p.val) q.val ((n + 1) % 11) = ∑ s ∈ Finset.range ((n + 1) % 11 + 1), Lib.RowsDot.tileTerm 512 _ _ ((n + 1) / 11 * 1024 + p.val) q.val s
      rw [d, r, Finset.sum_range_succ (n := n % 11 + 1)]

/-- What a copying point writes back is its block of the whole product. -/
theorem flushed_eq (c : Dev nD) (t : Fin cfg1.N) (h10 : t.val % 11 = 10) :
    (dat V c).flushed 2 t = ((cfg1.win 2).blk t).view.read (Elt Ideal) (outArr V c) := by
  show (cfg1.win 2).cut (grid1.coords t) ((dat V c).after 2 t) = _
  rw [after_2]
  obtain ⟨e0, e1, e2, e3, e4, e5⟩ := idx_facts t
  have hN : t.val < 44 := lt_of_lt_of_eq t.isLt (show cfg1.N = 44 from N_1)
  funext j
  obtain ⟨p, q, rfl⟩ : ∃ (p : Fin 1024) (q : Fin 2048), j = ix2 p q := ⟨j 0, j 1, eq_ix2 j⟩
  have hp : p.val < 1024 := p.isLt
  have hq : q.val < 2048 := q.isLt
  have h2 : ((cfg1.win 2).blk t).view.emb (ix2 p q) = ix2 (⟨t.val / 11 * 1024 + p.val, by omega⟩ : Fin 4096) (⟨q.val, by omega⟩ : Fin 2048) := by
    funext a; apply Fin.ext
    match a with
    | ⟨0, _⟩ => show win1_2.index t (0 : Fin 2) * 1024 + 1 * p.val = t.val / 11 * 1024 + p.val; omega
    | ⟨1, _⟩ => show win1_2.index t (1 : Fin 2) * 2048 + 1 * q.val = q.val; omega
  show accAt V c t.val t.isLt (ix2 p q) = outArr V c (((cfg1.win 2).blk t).view.emb (ix2 p q))
  rw [h2, acc_apply V c t.val t.isLt p q, h10]
  exact (Lib.RowsDot.rowsDot_tiles 11 512 5632 rfl (hidArr V c) (downArr V c) ⟨t.val / 11 * 1024 + p.val, by omega⟩ ⟨q.val, by omega⟩).symm

theorem mem_blk (t : Fin cfg1.N) (i : S4096x2048.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v38).slice (win1_2.rect t)).set ↔ _
  rw [View.set_slice_whole, Rect.mem_set_unit]
  exact Iff.rfl

/-- The output's blocks tile its array. -/
theorem covered (i : S4096x2048.Idx) : ∃ t : Fin cfg1.N, (cfg1.win 2).flush t = true ∧ i ∈ ((cfg1.win 2).blk t).view.set := by
  have hi0 : (i 0).val < 4096 := (i 0).isLt
  have hi1 : (i 1).val < 2048 := (i 1).isLt
  obtain ⟨t, hf, ht⟩ := idx_onto ⟨(i 0).val / 1024, by omega⟩
  have q0 : win1_2.index t (0 : Fin 2) = (i 0).val / 1024 := congrFun ht 0
  have q1 : win1_2.index t (1 : Fin 2) = 0 := congrFun ht 1
  refine ⟨t, hf, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 2048 ≤ (i 1).val ∧ (i 1).val < win1_2.index t (1 : Fin 2) * 2048 + 2048; omega

/-- THE ARRAY after the call: H · Wdᵀ, whole. -/
theorem final (c : Dev nD) : (dat V c).arrAt 2 cfg1.N = outArr V c :=
  (dat V c).arrAt_eq_of_cover 2 (outArr V c) (fun t hf => flushed_eq V c t ((flush1_2 t).mp hf)) covered

end Cert.KernelIdeal.DownValue

end
-- ==== Proof.RefValue.lean ====
/-
  The reference, read at the exact values: its result is `rowsDot (gated x Wg Wu) Wd` of the activations and the three
  dequantized weight matrices it builds. It transposes each [out, in] weight matrix and contracts the activations'
  second axis with the transposed matrix's first — the same sum, rows against rows; its silu is spelt
  g · (1 / (1 + e^(−g))), which is g · logistic g with the literal 1.0 read exactly.
-/
import proofs.«175893_j678604833231_2_alg».proof.Proof.Gen.ReferenceIdeal.Read
import proofs.«175893_j678604833231_2_alg».proof.Proof.LibRowsDot

set_option maxRecDepth 16384

noncomputable section

namespace Cert.ReferenceIdeal.RefValue

open Cert.ReferenceIdeal Cert.ReferenceIdeal.Gen Cert.ReferenceIdeal.Read
open Idealize.ShloMosaic Idealize.ShloMosaic.ValueIdx

/-- The literal 1.0 denotes 1. -/
theorem one_f32 : Ideal.ofBits .f32 0x3F800000#32 = 1 := by
  simp [Ideal.ofBits, Ideal.ieee, -EReal.coe_mul]; norm_num

variable (x0 : (⟨S4096x2048, .f32⟩ : BufTy).Contents (Elt Ideal))
  (x1 : (⟨S4096x8, .f32⟩ : BufTy).Contents (Elt Ideal)) (x2 : (⟨S5632x256, .i32⟩ : BufTy).Contents (Elt Ideal)) (x3 : (⟨S5632, .f32⟩ : BufTy).Contents (Elt Ideal))
  (x4 : (⟨S4096x8, .f32⟩ : BufTy).Contents (Elt Ideal)) (x5 : (⟨S5632x256, .i32⟩ : BufTy).Contents (Elt Ideal)) (x6 : (⟨S5632, .f32⟩ : BufTy).Contents (Elt Ideal))
  (x7 : (⟨S4096x8, .f32⟩ : BufTy).Contents (Elt Ideal)) (x8 : (⟨S2048x704, .i32⟩ : BufTy).Contents (Elt Ideal)) (x9 : (⟨S2048, .f32⟩ : BufTy).Contents (Elt Ideal))

abbrev act : Lib.RowsDot.Mat 4096 2048 := x0
abbrev wGate : Lib.RowsDot.Mat 5632 2048 := val_main_v10 (F := Ideal) x1 x2 x3
abbrev wUp : Lib.RowsDot.Mat 5632 2048 := val_main_v21 (F := Ideal) x4 x5 x6
abbrev wDown : Lib.RowsDot.Mat 2048 5632 := val_main_v32 (F := Ideal) x7 x8 x9

/-- x · Wgateᵀ, as the reference computes it through the transposed matrix. -/
theorem gate_apply (p : Fin 4096) (n : Fin 5632) :
    val_main_v34 (F := Ideal) x0 x1 x2 x3 (ix2 p n) = Lib.RowsDot.rowsDot (act x0) (wGate x1 x2 x3) (ix2 p n) := by
  rw [val_main_v34_apply, Lib.RowsDot.rowsDot_apply]
  refine Finset.sum_congr rfl fun k _ => ?_
  have a : lidx_main_v34 (ix2 p n) k = ix2 p k := funext fun a => Fin.ext (by
    match a with
    | ⟨0, _⟩ => rfl
    | ⟨1, _⟩ => rfl)
  have b : idx_main_v33 (ridx_main_v34 (ix2 p n) k) = ix2 n k := funext fun a => Fin.ext (by
    match a with
    | ⟨0, _⟩ => rfl
    | ⟨1, _⟩ => rfl)
  rw [val_main_v33_apply, a, b]

/-- x · Wupᵀ, the same way. -/
theorem up_apply (p : Fin 4096) (n : Fin 5632) :
    val_main_v37 (F := Ideal) x0 x4 x5 x6 (ix2 p n) = Lib.RowsDot.rowsDot (act x0) (wUp x4 x5 x6) (ix2 p n) := by
  rw [val_main_v37_apply, Lib.RowsDot.rowsDot_apply]
  refine Finset.sum_congr rfl fun k _ => ?_
  have a : lidx_main_v37 (ix2 p n) k = ix2 p k := funext fun a => Fin.ext (by
    match a with
    | ⟨0, _⟩ => rfl
    | ⟨1, _⟩ => rfl)
  have b : idx_main_v36 (ridx_main_v37 (ix2 p n) k) = ix2 n k := funext fun a => Fin.ext (by
    match a with
    | ⟨0, _⟩ => rfl
    | ⟨1, _⟩ => rfl)
  rw [val_main_v36_apply, a, b]

/-- The reference's silu of an entry: g · (1 / (1 + e^(−g))) is g · logistic g. -/
theorem silu_apply (i : S4096x5632.Idx) :
    val_main_v35 (F := Ideal) x0 x1 x2 x3 i = Lib.RowsDot.silu (val_main_v34 (F := Ideal) x0 x1 x2 x3 i) := by
  rw [val_main_v35_apply, val_main_call0_v5_apply, val_main_call0_v4_apply, val_main_call0_cst_0_apply,
    val_main_call0_v3_apply, val_main_call0_v2_apply, val_main_call0_cst_apply, val_main_call0_v1_apply,
    val_main_call0_v0_apply]
  show val_main_v34 (F := Ideal) x0 x1 x2 x3 i
      * Ideal.div (Ideal.ofBits .f32 0x3F800000#32) (Ideal.ofBits .f32 0x3F800000#32 + Ideal.exp (-(val_main_v34 (F := Ideal) x0 x1 x2 x3 i))) = _
  rw [one_f32]
  rfl

/-- THE REFERENCE'S RESULT is the expert's output of the activations and the three weight matrices. -/
theorem result_eq :
    val_main_v40 (F := Ideal) x0 x1 x2 x3 x4 x5 x6 x7 x8 x9
      = Lib.RowsDot.rowsDot (Lib.RowsDot.gated (act x0) (wGate x1 x2 x3) (wUp x4 x5 x6)) (wDown x7 x8 x9) := by
  funext i
  obtain ⟨p, q, rfl⟩ : ∃ (p : Fin 4096) (q : Fin 2048), i = ix2 p q := ⟨i 0, i 1, eq_ix2 i⟩
  rw [val_main_v40_apply, Lib.RowsDot.rowsDot_apply]
  refine Finset.sum_congr rfl fun k _ => ?_
  have a : lidx_main_v40 (ix2 p q) k = ix2 p k := funext fun a => Fin.ext (by
    match a with
    | ⟨0, _⟩ => rfl
    | ⟨1, _⟩ => rfl)
  have b : idx_main_v39 (ridx_main_v40 (ix2 p q) k) = ix2 q k := funext fun a => Fin.ext (by
    match a with
    | ⟨0, _⟩ => rfl
    | ⟨1, _⟩ => rfl)
  rw [val_main_v39_apply, a, b, val_main_v38_apply, silu_apply, gate_apply, up_apply]
  rfl

end Cert.ReferenceIdeal.RefValue

end
-- ==== Proof.Bridge.lean ====
/-
  The kernel program's result at the exact values, as one function of the argument arrays: the host operations leave
  the activations (a change of float format is the identity) and the three dequantized weight matrices — the very
  operations the reference applies to the same arguments — in the buffers the two calls read; the gate/up call leaves
  silu (X · Wgᵀ) ⊙ (X · Wuᵀ) in the hidden activations' array; the down call leaves that array times Wdᵀ in the result.
-/
import proofs.«175893_j678604833231_2_alg».proof.Proof.TwoCalls
import proofs.«175893_j678604833231_2_alg».proof.Proof.GateUpValue
import proofs.«175893_j678604833231_2_alg».proof.Proof.DownValue
import proofs.«175893_j678604833231_2_alg».proof.Proof.RefValue
import Idealize.ShloMosaic.Lib.StableHlo.Run

set_option maxRecDepth 16384

noncomputable section

namespace Cert.KernelIdeal.Bridge

open Cert.KernelIdeal Cert.KernelIdeal.Gen Cert.KernelIdeal.TwoCalls
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- The expert's output of the argument arrays: the reference's three weight matrices of the codebooks, indices and
    scales, and the activations. -/
def expected (c : Dev nD) : Lib.RowsDot.Mat 4096 2048 :=
  Lib.RowsDot.rowsDot
    (Lib.RowsDot.gated (Cert.ReferenceIdeal.RefValue.act (m ((c.tc : Thread nD τ).loc main_arg0)))
      (Cert.ReferenceIdeal.RefValue.wGate (m ((c.tc : Thread nD τ).loc main_arg1)) (m ((c.tc : Thread nD τ).loc main_arg2)) (m ((c.tc : Thread nD τ).loc main_arg3)))
      (Cert.ReferenceIdeal.RefValue.wUp (m ((c.tc : Thread nD τ).loc main_arg4)) (m ((c.tc : Thread nD τ).loc main_arg5)) (m ((c.tc : Thread nD τ).loc main_arg6))))
    (Cert.ReferenceIdeal.RefValue.wDown (m ((c.tc : Thread nD τ).loc main_arg7)) (m ((c.tc : Thread nD τ).loc main_arg8)) (m ((c.tc : Thread nD τ).loc main_arg9)))

set_option maxHeartbeats 4000000 in
/-- The host operations leave the activations, their float format changed, where the gate/up call reads them. -/
theorem host_act (c : Dev nD) :
    (GateUpValue.actArr (atHostR m) c) = Cert.ReferenceIdeal.RefValue.act (m ((c.tc : Thread nD τ).loc main_arg0)) := by
  show (StableHlo.after hostOps0 (fun b => m (c, b)) (Proc.devRef .tc main_v36) : Lib.RowsDot.Mat 4096 2048) = _
  after_results_simp <;> rfl

set_option maxHeartbeats 4000000 in
/-- They leave the gate weights: the codebook's rows gathered by the indices, laid out [out, in], scaled row by row. -/
theorem host_gate (c : Dev nD) :
    (GateUpValue.gateArr (atHostR m) c) = Cert.ReferenceIdeal.RefValue.wGate (m ((c.tc : Thread nD τ).loc main_arg1)) (m ((c.tc : Thread nD τ).loc main_arg2)) (m ((c.tc : Thread nD τ).loc main_arg3)) := by
  show (StableHlo.after hostOps0 (fun b => m (c, b)) (Proc.devRef .tc main_v11) : Lib.RowsDot.Mat 5632 2048) = _
  after_results_simp <;> rfl

set_option maxHeartbeats 4000000 in
/-- The up weights, -/
theorem host_up (c : Dev nD) :
    (GateUpValue.upArr (atHostR m) c) = Cert.ReferenceIdeal.RefValue.wUp (m ((c.tc : Thread nD τ).loc main_arg4)) (m ((c.tc : Thread nD τ).loc main_arg5)) (m ((c.tc : Thread nD τ).loc main_arg6)) := by
  show (StableHlo.after hostOps0 (fun b => m (c, b)) (Proc.devRef .tc main_v23) : Lib.RowsDot.Mat 5632 2048) = _
  after_results_simp <;> rfl

set_option maxHeartbeats 4000000 in
/-- and the down weights, which the first call does not touch. -/
theorem host_down (c : Dev nD) :
    (DownValue.downArr (atMidR m) c) = Cert.ReferenceIdeal.RefValue.wDown (m ((c.tc : Thread nD τ).loc main_arg7)) (m ((c.tc : Thread nD τ).loc main_arg8)) (m ((c.tc : Thread nD τ).loc main_arg9)) := by
  show (atMid m c (Proc.devRef .tc main_v35) : Lib.RowsDot.Mat 2048 5632) = _
  rw [atMid_of_ne m c main_v35 (by decide)]
  show (StableHlo.after hostOps0 (fun b => m (c, b)) (Proc.devRef .tc main_v35) : Lib.RowsDot.Mat 2048 5632) = _
  after_results_simp <;> rfl

/-- The hidden activations' array, between the two calls. -/
theorem mid_hidden (c : Dev nD) :
    (DownValue.hidArr (atMidR m) c) = GateUpValue.hiddenArr (atHostR m) c := by
  show (atMid m c (Proc.devRef .tc main_v37) : Lib.RowsDot.Mat 4096 5632) = _
  rw [show atMid m c (Proc.devRef .tc main_v37) = (GateUp.dat (atHostR m) c).arrAt 3 cfg0.N from atMid_arr m c 3]
  exact GateUpValue.final (atHostR m) c

/-- THE RESULT ARRAY after the run. -/
theorem result_value (c : Dev nD) : (Down.dat (atMidR m) c).arrAt 2 cfg1.N = expected m c := by
  rw [DownValue.final (atMidR m) c]
  unfold expected
  show Lib.RowsDot.rowsDot (DownValue.hidArr (atMidR m) c) (DownValue.downArr (atMidR m) c) = _
  rw [mid_hidden, host_down]
  show Lib.RowsDot.rowsDot (Lib.RowsDot.gated (GateUpValue.actArr (atHostR m) c) (GateUpValue.gateArr (atHostR m) c) (GateUpValue.upArr (atHostR m) c)) _ = _
  rw [host_act, host_gate, host_up]

end Cert.KernelIdeal.Bridge

end
-- ==== Proof.lean ====
/-
  The certificate of a mixture-of-experts feed-forward block against its reference:
  out = (silu (x · Wgᵀ) ⊙ (x · Wuᵀ)) · Wdᵀ, the three weight matrices rebuilt from small codebooks, index tables
  and per-row scales. The kernel program rebuilds the matrices with the reference's own host operations, then runs two
  pallas_calls: the first writes the hidden activations tile by tile, the second contracts them with Wd over 11 tiles of
  the hidden axis, accumulating in a scratch buffer. At the exact values every change of float format is the identity,
  the kernel's logistic is the reference's 1 / (1 + e^(−g)), and the tiled contraction is the whole one because a sum
  over 11·512 places is the sum of its 11 tiles' sums — commutativity and associativity of addition only, so the
  precondition is never opened.

  Frames: each kernel program's run is composed item by item (host operations, first call, second call) and every
  unscoped buffer of the final memory is read at the last valuation, at both float instances; the reference's frame
  is its run with the result dropped. No rewrite was applied by the ideal pass, so `preserves` is trivial.
-/
import proofs.«175893_j678604833231_2_alg».proof.Defs
import proofs.«175893_j678604833231_2_alg».proof.Proof.Gen.Kernel
import proofs.«175893_j678604833231_2_alg».proof.Proof.Gen.KernelIdeal
import proofs.«175893_j678604833231_2_alg».proof.Proof.Gen.ReferenceIdeal
import proofs.«175893_j678604833231_2_alg».proof.Proof.Gen.ReferenceIdeal.Run
import proofs.«175893_j678604833231_2_alg».proof.Proof.Gen.ReferenceIdeal.Read
import proofs.«175893_j678604833231_2_alg».proof.Proof.Gen.Pre_finite_inputs
import proofs.«175893_j678604833231_2_alg».proof.Proof.TwoCalls
import proofs.«175893_j678604833231_2_alg».proof.Proof.TwoCallsBits
import proofs.«175893_j678604833231_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.TwoCalls.frame (F := Bits) m ρ
theorem frame_ki : Cert.frame_KernelIdeal := fun m ρ _ => Cert.KernelIdeal.TwoCalls.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the expert's output of the argument arrays in their result. -/
theorem algebraic : Cert.algebraic_KernelIdeal_ReferenceIdeal := by
  intro m ρ m' ρ' _ hagree
  refine ⟨fun c => Cert.KernelIdeal.Bridge.expected m c, ?_, ?_⟩
  · exact (θ_run Cert.KernelIdeal.defs _ _).mono
      (fun r h c => ⟨(Cert.KernelIdeal.TwoCalls.result m r h c).trans (Cert.KernelIdeal.Bridge.result_value m c),
        Cert.KernelIdeal.TwoCalls.kept m r h c⟩)
      (Cert.KernelIdeal.TwoCalls.run_main (F := Ideal) m ρ)
  · refine (θ_run Cert.ReferenceIdeal.defs _ _).mono (fun _ h c => ⟨?_, (h c).2⟩)
      (Cert.ReferenceIdeal.Value.run (F := Ideal) m' ρ')
    refine ((h c).1.trans (Cert.ReferenceIdeal.Read.val_main_v40_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)))).trans ?_
    rw [Cert.ReferenceIdeal.RefValue.result_eq]
    obtain ⟨a0, a1, a2, a3, a4, a5, a6, a7, a8, a9⟩ := hagree c
    rw [a0, a1, a2, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
